-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80x1024 : Shape := ⟨2, ![80, 1024]⟩
abbrev S2048x80x1024 : Shape := ⟨3, ![2048, 80, 1024]⟩
abbrev S2048x80 : Shape := ⟨2, ![2048, 80]⟩
abbrev S_ : Shape := ⟨0, ![]⟩

class Facts : Prop where
  bcast_S_S80x1024 : S_.BroadcastsInDim S80x1024 (![] : Fin 0 → Fin S80x1024.rank)
  reducesTo_S80x1024_S_d0_1 : S80x1024.ReducesTo [0, 1] S_
  h_S_ : 0 < S_.numel
  bcast_S_S2048x80x1024 : S_.BroadcastsInDim S2048x80x1024 (![] : Fin 0 → Fin S2048x80x1024.rank)
  reducesTo_S2048x80x1024_S_d0_1_2 : S2048x80x1024.ReducesTo [0, 1, 2] S_

variable [Facts]

def fn {F : FTy → Type} [FloatOps F] (main_arg0 : FVec F S80x1024 .f32) (main_arg1 : FVec F S2048x80x1024 .f32) (main_arg2 : IVec S2048x80 32) : IVec S_ 1 :=
  let main_v0 : FVec F S80x1024 .f32 := Host.absf main_arg0
  let main_cst : FVec F S_ .f32 := constant S_ .f32 0x7F800000#32
  let main_v1 : FVec F S80x1024 .f32 := broadcastInDim S80x1024 ![] bcast_S_S80x1024 main_cst
  let main_v2 : IVec S80x1024 1 := cmpf .olt main_v0 main_v1
  let main_c : IVec S_ 1 := constantI S_ 1 1#1
  let main_v3 : IVec S_ 1 := (fun x v => Host.reduce IntOp.andi x v reducesTo_S80x1024_S_d0_1 h_S_) main_v2 main_c
  let main_v4 : FVec F S2048x80x1024 .f32 := Host.absf main_arg1
  let main_cst_0 : FVec F S_ .f32 := constant S_ .f32 0x7F800000#32
  let main_v5 : FVec F S2048x80x1024 .f32 := broadcastInDim S2048x80x1024 ![] bcast_S_S2048x80x1024 main_cst_0
  let main_v6 : IVec S2048x80x1024 1 := cmpf .olt main_v4 main_v5
  let main_c_1 : IVec S_ 1 := constantI S_ 1 1#1
  let main_v7 : IVec S_ 1 := (fun x v => Host.reduce IntOp.andi x v reducesTo_S2048x80x1024_S_d0_1_2 h_S_) main_v6 main_c_1
  let main_v8 : IVec S_ 1 := andi main_v3 main_v7
  main_v8
-- ==== Kernel.lean ====
abbrev S80x1024 : Shape := ⟨2, ![80, 1024]⟩
abbrev S2048x80x1024 : Shape := ⟨3, ![2048, 80, 1024]⟩
abbrev S2048x80 : Shape := ⟨2, ![2048, 80]⟩
abbrev S2x8x128 : Shape := ⟨3, ![2, 8, 128]⟩
abbrev S32x80x1024 : Shape := ⟨3, ![32, 80, 1024]⟩
abbrev S32x80 : Shape := ⟨2, ![32, 80]⟩
abbrev S1x8x128 : Shape := ⟨3, ![1, 8, 128]⟩
abbrev S1x1 : Shape := ⟨2, ![1, 1]⟩
abbrev S16x80x1024 : Shape := ⟨3, ![16, 80, 1024]⟩
abbrev S16x80 : Shape := ⟨2, ![16, 80]⟩
abbrev S1x80x1024 : Shape := ⟨3, ![1, 80, 1024]⟩
abbrev S16 : Shape := ⟨1, ![16]⟩
abbrev S16x1 : Shape := ⟨2, ![16, 1]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 20
  | .vmem => 9
  | .smem => 0
  | _ => 0

abbrev bufTy : (tb : Table) → Fin (tcTables nBuf tb) → BufTy
  | .hbm, ⟨0, _⟩ => ⟨S80x1024, .f32⟩
  | .hbm, ⟨1, _⟩ => ⟨S2048x80x1024, .f32⟩
  | .hbm, ⟨2, _⟩ => ⟨S2048x80, .i32⟩
  | .hbm, ⟨3, _⟩ => ⟨S2x8x128, .f32⟩
  | .hbm, ⟨4, _⟩ => ⟨S2x8x128, .f32⟩
  | .hbm, ⟨5, _⟩ => ⟨S2x1x1, .f32⟩
  | .hbm, ⟨6, _⟩ => ⟨S2, .f32⟩
  | .hbm, ⟨7, _⟩ => ⟨S_, .f32⟩
  | .hbm, ⟨8, _⟩ => ⟨S_, .f32⟩
  | .hbm, ⟨9, _⟩ => ⟨S2x1x1, .f32⟩
  | .hbm, ⟨10, _⟩ => ⟨S2, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i1⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S80x1024, .f32⟩
  | .local _ .vmem, ⟨1, _⟩ => ⟨S32x80x1024, .f32⟩
  | .local _ .vmem, ⟨2, _⟩ => ⟨S32x80x1024, .f32⟩
  | .local _ .vmem, ⟨3, _⟩ => ⟨S32x80, .i32⟩
  | .local _ .vmem, ⟨4, _⟩ => ⟨S32x80, .i32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | _, _ => ⟨S80x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_3 : BitVec 32 := 0#32
  let c2_i32 : BitVec 32 := 2#32
  let v6 : BitVec 32 := Scalar.addi c0_i32_3 c2_i32
  let c1_i32 : BitVec 32 := 1#32
  ⟨c0_i32_3, v6, c1_i32⟩
def k0_mult1 (k0_t1 : Fin k0_t1_loop.trips) : BitVec 32 :=
  let c0_i32_3 : BitVec 32 := 0#32
  let c1_i32 : BitVec 32 := 1#32
  let arg7 : BitVec 32 := Scf.iv c0_i32_3 c1_i32 k0_t1
  let c16_i32 : BitVec 32 := 16#32
  let v22 : BitVec 32 := Scalar.muli arg7 c16_i32
  v22
def k0_off1 (k0_t1 : Fin k0_t1_loop.trips) : Fin 3 → Nat :=
  let c0_i32_3 : BitVec 32 := 0#32
  let c1_i32 : BitVec 32 := 1#32
  let arg7 : BitVec 32 := Scf.iv c0_i32_3 c1_i32 k0_t1
  let c16_i32 : BitVec 32 := 16#32
  let v22 : BitVec 32 := Scalar.muli arg7 c16_i32
  let v23 : BitVec 32 := v22
  let v24 : Index := Scalar.indexCast v23
  let c0_17 : Index := 0#32
  let c0_18 : Index := 0#32
  ![v24.toNat, 0, 0]
def k0_off2 (k0_t1 : Fin k0_t1_loop.trips) : Fin 2 → Nat :=
  let c0_i32_3 : BitVec 32 := 0#32
  let c1_i32 : BitVec 32 := 1#32
  let arg7 : BitVec 32 := Scf.iv c0_i32_3 c1_i32 k0_t1
  let c16_i32 : BitVec 32 := 16#32
  let v22 : BitVec 32 := Scalar.muli arg7 c16_i32
  let v23 : BitVec 32 := v22
  let v26 : Index := Scalar.indexCast v23
  let c0_19 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S32x80x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x80 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S80x1024_S80x1024_0_0 : ∀ a, (![0, 0] : Fin 2 → Nat) a + S80x1024.size a ≤ S80x1024.size a
  h_S80x1024 : 0 < S80x1024.numel
  h_S16x80x1024 : 0 < S16x80x1024.numel
  h_S16x80 : 0 < S16x80.numel
  shapeCasts_S80x1024_S1x80x1024 : S80x1024.ShapeCasts S1x80x1024
  broadcasts_S1x80x1024_S16x80x1024 : S1x80x1024.Broadcasts S16x80x1024
  reduces_S16x80x1024_S16x80 : S16x80x1024.Reduces [2] S16x80
  natLt_1_32 : 1 < 32
  reduces_S16x80_S16 : S16x80.Reduces [1] S16
  shapeCasts_S16_S16x1 : S16.ShapeCasts S16x1
  reduces_S16x1_S1 : S16x1.Reduces [0] S1
  shapeCasts_S1_S1x1 : S1.ShapeCasts S1x1
  shapeCasts_S1x8x128_S1x8x128 : S1x8x128.ShapeCasts S1x8x128
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S16x80x1024.size a ≤ S32x80x1024.size a
  k0_off2_inb : ∀ k0_t1 : Fin k0_t1_loop.trips, ∀ a, (k0_off2 k0_t1) a + S16x80.size a ≤ S32x80.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S80x1024.size a ≤ S80x1024.size a
  hwx0_0 : ∀ i : grid0.Coords, EltTy.bits .f32 = 32 ∨ (Rect.block (s := S80x1024) S80x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x80x1024.size a ≤ S2048x80x1024.size a
  hwx0_1 : ∀ i : grid0.Coords, EltTy.bits .f32 = 32 ∨ (Rect.block (s := S2048x80x1024) S32x80x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x80.size a ≤ S2048x80.size a
  hwx0_2 : ∀ i : grid0.Coords, EltTy.bits .i32 = 32 ∨ (Rect.block (s := S2048x80) S32x80.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

abbrev win0_0 : Pipeline.Window sig grid0 :=
  Pipeline.Window.ofSpec (Memref.whole main_arg0) S80x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x80x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x80.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S80x1024 : Shape := ⟨2, ![80, 1024]⟩
abbrev S2048x80x1024 : Shape := ⟨3, ![2048, 80, 1024]⟩
abbrev S2048x80 : Shape := ⟨2, ![2048, 80]⟩
abbrev S_ : Shape := ⟨0, ![]⟩
abbrev S1x80x1024 : Shape := ⟨3, ![1, 80, 1024]⟩

abbrev nBuf : Space → Nat
  | .hbm => 25
  | .vmem => 0
  | .smem => 0
  | _ => 0

abbrev bufTy : (tb : Table) → Fin (tcTables nBuf tb) → BufTy
  | .hbm, ⟨0, _⟩ => ⟨S80x1024, .f32⟩
  | .hbm, ⟨1, _⟩ => ⟨S2048x80x1024, .f32⟩
  | .hbm, ⟨2, _⟩ => ⟨S2048x80, .i32⟩
  | .hbm, ⟨3, _⟩ => ⟨S_, .i32⟩
  | .hbm, ⟨4, _⟩ => ⟨S2048x80, .i32⟩
  | .hbm, ⟨5, _⟩ => ⟨S2048x80, .i1⟩
  | .hbm, ⟨6, _⟩ => ⟨S2048x80, .f32⟩
  | .hbm, ⟨7, _⟩ => ⟨S1x80x1024, .f32⟩
  | .hbm, ⟨8, _⟩ => ⟨S2048x80x1024, .f32⟩
  | .hbm, ⟨9, _⟩ => ⟨S2048x80x1024, .f32⟩
  | .hbm, ⟨10, _⟩ => ⟨S2048x80x1024, .f32⟩
  | .hbm, ⟨11, _⟩ => ⟨S_, .f32⟩
  | .hbm, ⟨12, _⟩ => ⟨S2048x80, .f32⟩
  | .hbm, ⟨13, _⟩ => ⟨S2048x80, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S2048x80 : S_.BroadcastsInDim S2048x80 (![] : Fin 0 → Fin S2048x80.rank)
  bcast_S80x1024_S1x80x1024_1_2 : S80x1024.BroadcastsInDim S1x80x1024 (![1, 2] : Fin 2 → Fin S1x80x1024.rank)
  bcast_S1x80x1024_S2048x80x1024_0_1_2 : S1x80x1024.BroadcastsInDim S2048x80x1024 (![0, 1, 2] : Fin 3 → Fin S2048x80x1024.rank)
  reducesTo_S2048x80x1024_S2048x80_d2 : S2048x80x1024.ReducesTo [2] S2048x80
  h_S_ : 0 < S_.numel
  reducesTo_S2048x80_S_d0_1 : S2048x80.ReducesTo [0, 1] S_

variable [Facts₀]

class Facts : Prop extends Facts₀ where

variable [Facts]
-- ==== Proof.BodyRunsK.lean ====
/-
  The kernel body on whole staging buffers, in its two control cases.

  The body branches on the second grid coordinate: where it is zero (case A, the first tile of a half) both
  accumulator blocks are first set to zero; elsewhere (case B) they keep what the tile before left. In both cases
  the body then reads the prototype block, runs the two 16-row sub-tiles carrying a pair of 1×1 partial sums, and
  adds the pair, broadcast, into the two accumulator blocks. Each case is run once, symbolically; what the stores
  leave in the two accumulator buffers is recorded as the list of stored pieces (last store first).
-/
import proofs.«158026_j57853209477371_2_alg».proof.Proof.Gen.Kernel.Frame
import proofs.«158026_j57853209477371_2_alg».proof.Proof.Gen.Kernel.Loops
import proofs.«158026_j57853209477371_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition, in closed form over the grid -/

/-- The body's one conditional: "the tile index inside the half is zero". -/
abbrev cond0_0 (i : grid0.Coords) : Prop := (Scalar.cmpi .ne (Scalar.extui (Scalar.cmpi .eq (BitVec.ofNat 32 (i 1).val) 0#32)) 0#32) = 1#1

/-- It holds exactly at the points whose linear position is a multiple of 32 (the first tile of each half). -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The staging buffers the body is called with at a point -/

abbrev ms0_0 (t : Fin cfg0.N) : Memref sig .tc .vmem S80x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x80x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x80 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)

/-! ## Case B: the accumulators keep what the tile before left -/

set_option maxHeartbeats 1000000 in
/-- Case B (the conditional not taken). The three input buffers hold `x0`, `x1`, `x2`, the two accumulator
    buffers `xo3`, `xo4`; the body runs to its continuation with the inputs as they were and each accumulator
    buffer overwritten by the recorded pieces. -/
noncomputable def kernelRun0_B (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S80x1024 .f32) (x1 : Vec F S32x80x1024 .f32) (x2 : Vec F S32x80 .i32) (xo3 xo4 : Vec F S1x8x128 .f32) :
    { L : List (View.Piece (Elt F) S1x8x128 .f32) × List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__kernel i arg2 harg2 arg3 harg3 arg4 harg4 arg5 harg5 arg6 harg6) K } := by
  refine ⟨(?_, ?_), fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

/-! ## Case A: the first tile of a half zeroes the accumulators first -/

set_option maxHeartbeats 1000000 in
/-- Case A (the conditional taken). The three input buffers hold `x0`, `x1`, `x2`; the two accumulator buffers
    hold anything (a fresh staging buffer, or one already written back); the body runs to its continuation with the
    inputs as they were and each accumulator buffer overwritten by the recorded pieces. -/
noncomputable def kernelRun0_A (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S80x1024 .f32) (x1 : Vec F S32x80x1024 .f32) (x2 : Vec F S32x80 .i32) :
    { L : List (View.Piece (Elt F) S1x8x128 .f32) × List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__kernel i arg2 harg2 arg3 harg3 arg4 harg4 arg5 harg5 arg6 harg6) K } := by
  refine ⟨(?_, ?_), fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.Kernel.Body

end
-- ==== Proof.BodyDataK.lean ====
/-
  The proof data of the one pipeline, the body obligation at every grid point, and the frame.

  The grid has 2 × 32 points, point `t` at half `t / 32`, tile `t % 32`. The three input windows hold their
  blocks at every point. The two accumulator windows keep one block per half: it is reset at the first tile
  (`t % 32 = 0`), added to at every later tile, and written back after the last (`t % 32 = 31`). What the two
  accumulator buffers hold after point `t` is defined by recursion on `t`: the case the point is in, run on the
  point's input blocks, over what the point before left.
-/
import proofs.«158026_j57853209477371_2_alg».proof.Proof.BodyRunsK

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two accumulator buffers -/

/-- A fixed view of the accumulator blocks' shape through which the stored pieces are read back. -/
abbrev VO0_3 : View sig .tc .vmem S1x8x128 .f32 := (Memref.whole cc0_stg3_0 : Memref sig .tc .vmem S1x8x128 .f32).view
abbrev VO0_4 : View sig .tc .vmem S1x8x128 .f32 := (Memref.whole cc0_stg4_0 : Memref sig .tc .vmem S1x8x128 .f32).view

/-- In each case and for each accumulator the stored pieces cover the block (the last store is of the whole block). -/
theorem cover0_A_3 (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S80x1024 .f32) (x1 : Vec F S32x80x1024 .f32) (x2 : Vec F S32x80 .i32) (y : S1x8x128.Idx) :
    ∃ pc ∈ (kernelRun0_A c i arg2 harg2 arg3 harg3 arg4 harg4 arg5 harg5 arg6 harg6 hc0 x0 x1 x2).1.1, y ∈ pc.1.set :=
  View.cover_of_tiledL (kernelRun0_A c i arg2 harg2 arg3 harg3 arg4 harg4 arg5 harg5 arg6 harg6 hc0 x0 x1 x2).1.1 S1x8x128.size (by sl_kernel_rfl) y
theorem cover0_A_4 (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S80x1024 .f32) (x1 : Vec F S32x80x1024 .f32) (x2 : Vec F S32x80 .i32) (y : S1x8x128.Idx) :
    ∃ pc ∈ (kernelRun0_A c i arg2 harg2 arg3 harg3 arg4 harg4 arg5 harg5 arg6 harg6 hc0 x0 x1 x2).1.2, y ∈ pc.1.set :=
  View.cover_of_tiledL (kernelRun0_A c i arg2 harg2 arg3 harg3 arg4 harg4 arg5 harg5 arg6 harg6 hc0 x0 x1 x2).1.2 S1x8x128.size (by sl_kernel_rfl) y
theorem cover0_B_3 (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S80x1024 .f32) (x1 : Vec F S32x80x1024 .f32) (x2 : Vec F S32x80 .i32) (xo3 xo4 : Vec F S1x8x128 .f32) (y : S1x8x128.Idx) :
    ∃ pc ∈ (kernelRun0_B c i arg2 harg2 arg3 harg3 arg4 harg4 arg5 harg5 arg6 harg6 hc0 x0 x1 x2 xo3 xo4).1.1, y ∈ pc.1.set :=
  View.cover_of_tiledL (kernelRun0_B c i arg2 harg2 arg3 harg3 arg4 harg4 arg5 harg5 arg6 harg6 hc0 x0 x1 x2 xo3 xo4).1.1 S1x8x128.size (by sl_kernel_rfl) y
theorem cover0_B_4 (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S80x1024 .f32) (x1 : Vec F S32x80x1024 .f32) (x2 : Vec F S32x80 .i32) (xo3 xo4 : Vec F S1x8x128 .f32) (y : S1x8x128.Idx) :
    ∃ pc ∈ (kernelRun0_B c i arg2 harg2 arg3 harg3 arg4 harg4 arg5 harg5 arg6 harg6 hc0 x0 x1 x2 xo3 xo4).1.2, y ∈ pc.1.set :=
  View.cover_of_tiledL (kernelRun0_B c i arg2 harg2 arg3 harg3 arg4 harg4 arg5 harg5 arg6 harg6 hc0 x0 x1 x2 xo3 xo4).1.2 S1x8x128.size (by sl_kernel_rfl) y

/-- What case A leaves in the first (sum) accumulator: its pieces read back. -/
def out0_A_3 (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S80x1024 .f32) (x1 : Vec F S32x80x1024 .f32) (x2 : Vec F S32x80 .i32) : Vec F S1x8x128 .f32 :=
  VO0_3.read (Elt F) (VO0_3.writes (Elt F) VO0_3.junk (kernelRun0_A c i arg2 harg2 arg3 harg3 arg4 harg4 arg5 harg5 arg6 harg6 hc0 x0 x1 x2).1.1)
/-- What case A leaves in the second (count) accumulator. -/
def out0_A_4 (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S80x1024 .f32) (x1 : Vec F S32x80x1024 .f32) (x2 : Vec F S32x80 .i32) : Vec F S1x8x128 .f32 :=
  VO0_4.read (Elt F) (VO0_4.writes (Elt F) VO0_4.junk (kernelRun0_A c i arg2 harg2 arg3 harg3 arg4 harg4 arg5 harg5 arg6 harg6 hc0 x0 x1 x2).1.2)
/-- What case B leaves in the sum accumulator, over the running contents `xo3`, `xo4`. -/
def out0_B_3 (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S80x1024 .f32) (x1 : Vec F S32x80x1024 .f32) (x2 : Vec F S32x80 .i32) (xo3 xo4 : Vec F S1x8x128 .f32) : Vec F S1x8x128 .f32 :=
  VO0_3.read (Elt F) (VO0_3.writes (Elt F) VO0_3.junk (kernelRun0_B c i arg2 harg2 arg3 harg3 arg4 harg4 arg5 harg5 arg6 harg6 hc0 x0 x1 x2 xo3 xo4).1.1)
/-- What case B leaves in the count accumulator. -/
def out0_B_4 (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S80x1024 .f32) (x1 : Vec F S32x80x1024 .f32) (x2 : Vec F S32x80 .i32) (xo3 xo4 : Vec F S1x8x128 .f32) : Vec F S1x8x128 .f32 :=
  VO0_4.read (Elt F) (VO0_4.writes (Elt F) VO0_4.junk (kernelRun0_B c i arg2 harg2 arg3 harg3 arg4 harg4 arg5 harg5 arg6 harg6 hc0 x0 x1 x2 xo3 xo4).1.2)

/-! ## The accumulation over the grid points -/

/-- What the two accumulator buffers hold after the body at position `n`: at the first tile of a half case A's
    contents; at a later tile case B's, over what position `n - 1` left. -/
def outsAt0 (c : Dev nD) : (n : ℕ) → n < cfg0.N → Vec F S1x8x128 .f32 × Vec F S1x8x128 .f32
  | 0, hn =>
    (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩),
     out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 32 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2)

/-- At a first tile: case A's contents. -/
theorem outsAt0_A (c : Dev nD) (t : Fin cfg0.N) (h0 : t.val % 32 = 0) :
    outsAt0 m c t.val t.isLt =
      (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t),
       out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)) := by
  obtain ⟨n, hn⟩ := t
  cases n with
  | zero => exact rfl
  | succ n => exact (dif_pos h0).trans rfl

/-- At a later tile: case B's contents over what the point before left. -/
theorem outsAt0_B (c : Dev nD) (t : Fin cfg0.N) (h0 : ¬t.val % 32 = 0) :
    outsAt0 m c t.val t.isLt =
      (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t)
          (outsAt0 m c (t.val - 1) (Nat.lt_of_le_of_lt (Nat.sub_le _ _) t.isLt)).1 (outsAt0 m c (t.val - 1) (Nat.lt_of_le_of_lt (Nat.sub_le _ _) t.isLt)).2,
       out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t)
          (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input buffer at its block and the two
    accumulator buffers at `outsAt0`; the invariant is the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later tile of a half an accumulator's staging buffer holds what the body left at the point before: the
    point is not the first, and the buffer was not written back between (write-backs follow the last tile only). -/
theorem before0_3_B (c : Dev nD) (t : Fin cfg0.N) (h0 : ¬t.val % 32 = 0) (d) :
    (dats m 0 c).before 3 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]
theorem before0_4_B (c : Dev nD) (t : Fin cfg0.N) (h0 : ¬t.val % 32 = 0) (d) :
    (dats m 0 c).before 4 t d = (outsAt0 m c (t.val - 1) (Nat.lt_of_le_of_lt (Nat.sub_le _ _) t.isLt)).2 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' buffers hold their blocks; the closed form of the branch condition says which
    case the point is in; at a later tile the accumulators hold what the point before left; so that case's run applies,
    and its pieces, covering, read back as `outsAt0`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 32 = 0
  · rw [outsAt0_A m c t h0]
    dsimp only
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _)
  · rw [outsAt0_B m c t h0]
    dsimp only
    simp only [before0_3_B m c t h0, before0_4_B m c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) _ _).2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; every array of the pipeline ends at what the library
    computes from the proof data, every buffer the lines after the region write at those lines' results, every
    other buffer as the region found it. -/
theorem run_main : θ_run defs (onTc (τ := τ) (main (F := F))) (s₀ m ρ)
    (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.BodyRunsI.lean ====
/-
  The kernel body on whole staging buffers, in its two control cases.

  The body branches on the second grid coordinate: where it is zero (case A, the first tile of a half) both
  accumulator blocks are first set to zero; elsewhere (case B) they keep what the tile before left. In both cases
  the body then reads the prototype block, runs the two 16-row sub-tiles carrying a pair of 1×1 partial sums, and
  adds the pair, broadcast, into the two accumulator blocks. Each case is run once, symbolically; what the stores
  leave in the two accumulator buffers is recorded as the list of stored pieces (last store first).
-/
import proofs.«158026_j57853209477371_2_alg».proof.Proof.Gen.KernelIdeal.Frame
import proofs.«158026_j57853209477371_2_alg».proof.Proof.Gen.KernelIdeal.Loops
import proofs.«158026_j57853209477371_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition, in closed form over the grid -/

/-- The body's one conditional: "the tile index inside the half is zero". -/
abbrev cond0_0 (i : grid0.Coords) : Prop := (Scalar.cmpi .ne (Scalar.extui (Scalar.cmpi .eq (BitVec.ofNat 32 (i 1).val) 0#32)) 0#32) = 1#1

/-- It holds exactly at the points whose linear position is a multiple of 32 (the first tile of each half). -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The staging buffers the body is called with at a point -/

abbrev ms0_0 (t : Fin cfg0.N) : Memref sig .tc .vmem S80x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x80x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x80 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)

/-! ## Case B: the accumulators keep what the tile before left -/

set_option maxHeartbeats 1000000 in
/-- Case B (the conditional not taken). The three input buffers hold `x0`, `x1`, `x2`, the two accumulator
    buffers `xo3`, `xo4`; the body runs to its continuation with the inputs as they were and each accumulator
    buffer overwritten by the recorded pieces. -/
noncomputable def kernelRun0_B (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S80x1024 .f32) (x1 : Vec F S32x80x1024 .f32) (x2 : Vec F S32x80 .i32) (xo3 xo4 : Vec F S1x8x128 .f32) :
    { L : List (View.Piece (Elt F) S1x8x128 .f32) × List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__kernel i arg2 harg2 arg3 harg3 arg4 harg4 arg5 harg5 arg6 harg6) K } := by
  refine ⟨(?_, ?_), fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

/-! ## Case A: the first tile of a half zeroes the accumulators first -/

set_option maxHeartbeats 1000000 in
/-- Case A (the conditional taken). The three input buffers hold `x0`, `x1`, `x2`; the two accumulator buffers
    hold anything (a fresh staging buffer, or one already written back); the body runs to its continuation with the
    inputs as they were and each accumulator buffer overwritten by the recorded pieces. -/
noncomputable def kernelRun0_A (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S80x1024 .f32) (x1 : Vec F S32x80x1024 .f32) (x2 : Vec F S32x80 .i32) :
    { L : List (View.Piece (Elt F) S1x8x128 .f32) × List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__kernel i arg2 harg2 arg3 harg3 arg4 harg4 arg5 harg5 arg6 harg6) K } := by
  refine ⟨(?_, ?_), fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.KernelIdeal.Body

end
-- ==== Proof.BodyDataI.lean ====
/-
  The proof data of the one pipeline, the body obligation at every grid point, and the frame.

  The grid has 2 × 32 points, point `t` at half `t / 32`, tile `t % 32`. The three input windows hold their
  blocks at every point. The two accumulator windows keep one block per half: it is reset at the first tile
  (`t % 32 = 0`), added to at every later tile, and written back after the last (`t % 32 = 31`). What the two
  accumulator buffers hold after point `t` is defined by recursion on `t`: the case the point is in, run on the
  point's input blocks, over what the point before left.
-/
import proofs.«158026_j57853209477371_2_alg».proof.Proof.BodyRunsI

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two accumulator buffers -/

/-- A fixed view of the accumulator blocks' shape through which the stored pieces are read back. -/
abbrev VO0_3 : View sig .tc .vmem S1x8x128 .f32 := (Memref.whole cc0_stg3_0 : Memref sig .tc .vmem S1x8x128 .f32).view
abbrev VO0_4 : View sig .tc .vmem S1x8x128 .f32 := (Memref.whole cc0_stg4_0 : Memref sig .tc .vmem S1x8x128 .f32).view

/-- In each case and for each accumulator the stored pieces cover the block (the last store is of the whole block). -/
theorem cover0_A_3 (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S80x1024 .f32) (x1 : Vec F S32x80x1024 .f32) (x2 : Vec F S32x80 .i32) (y : S1x8x128.Idx) :
    ∃ pc ∈ (kernelRun0_A c i arg2 harg2 arg3 harg3 arg4 harg4 arg5 harg5 arg6 harg6 hc0 x0 x1 x2).1.1, y ∈ pc.1.set :=
  View.cover_of_tiledL (kernelRun0_A c i arg2 harg2 arg3 harg3 arg4 harg4 arg5 harg5 arg6 harg6 hc0 x0 x1 x2).1.1 S1x8x128.size (by sl_kernel_rfl) y
theorem cover0_A_4 (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S80x1024 .f32) (x1 : Vec F S32x80x1024 .f32) (x2 : Vec F S32x80 .i32) (y : S1x8x128.Idx) :
    ∃ pc ∈ (kernelRun0_A c i arg2 harg2 arg3 harg3 arg4 harg4 arg5 harg5 arg6 harg6 hc0 x0 x1 x2).1.2, y ∈ pc.1.set :=
  View.cover_of_tiledL (kernelRun0_A c i arg2 harg2 arg3 harg3 arg4 harg4 arg5 harg5 arg6 harg6 hc0 x0 x1 x2).1.2 S1x8x128.size (by sl_kernel_rfl) y
theorem cover0_B_3 (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S80x1024 .f32) (x1 : Vec F S32x80x1024 .f32) (x2 : Vec F S32x80 .i32) (xo3 xo4 : Vec F S1x8x128 .f32) (y : S1x8x128.Idx) :
    ∃ pc ∈ (kernelRun0_B c i arg2 harg2 arg3 harg3 arg4 harg4 arg5 harg5 arg6 harg6 hc0 x0 x1 x2 xo3 xo4).1.1, y ∈ pc.1.set :=
  View.cover_of_tiledL (kernelRun0_B c i arg2 harg2 arg3 harg3 arg4 harg4 arg5 harg5 arg6 harg6 hc0 x0 x1 x2 xo3 xo4).1.1 S1x8x128.size (by sl_kernel_rfl) y
theorem cover0_B_4 (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S80x1024 .f32) (x1 : Vec F S32x80x1024 .f32) (x2 : Vec F S32x80 .i32) (xo3 xo4 : Vec F S1x8x128 .f32) (y : S1x8x128.Idx) :
    ∃ pc ∈ (kernelRun0_B c i arg2 harg2 arg3 harg3 arg4 harg4 arg5 harg5 arg6 harg6 hc0 x0 x1 x2 xo3 xo4).1.2, y ∈ pc.1.set :=
  View.cover_of_tiledL (kernelRun0_B c i arg2 harg2 arg3 harg3 arg4 harg4 arg5 harg5 arg6 harg6 hc0 x0 x1 x2 xo3 xo4).1.2 S1x8x128.size (by sl_kernel_rfl) y

/-- What case A leaves in the first (sum) accumulator: its pieces read back. -/
def out0_A_3 (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S80x1024 .f32) (x1 : Vec F S32x80x1024 .f32) (x2 : Vec F S32x80 .i32) : Vec F S1x8x128 .f32 :=
  VO0_3.read (Elt F) (VO0_3.writes (Elt F) VO0_3.junk (kernelRun0_A c i arg2 harg2 arg3 harg3 arg4 harg4 arg5 harg5 arg6 harg6 hc0 x0 x1 x2).1.1)
/-- What case A leaves in the second (count) accumulator. -/
def out0_A_4 (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S80x1024 .f32) (x1 : Vec F S32x80x1024 .f32) (x2 : Vec F S32x80 .i32) : Vec F S1x8x128 .f32 :=
  VO0_4.read (Elt F) (VO0_4.writes (Elt F) VO0_4.junk (kernelRun0_A c i arg2 harg2 arg3 harg3 arg4 harg4 arg5 harg5 arg6 harg6 hc0 x0 x1 x2).1.2)
/-- What case B leaves in the sum accumulator, over the running contents `xo3`, `xo4`. -/
def out0_B_3 (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S80x1024 .f32) (x1 : Vec F S32x80x1024 .f32) (x2 : Vec F S32x80 .i32) (xo3 xo4 : Vec F S1x8x128 .f32) : Vec F S1x8x128 .f32 :=
  VO0_3.read (Elt F) (VO0_3.writes (Elt F) VO0_3.junk (kernelRun0_B c i arg2 harg2 arg3 harg3 arg4 harg4 arg5 harg5 arg6 harg6 hc0 x0 x1 x2 xo3 xo4).1.1)
/-- What case B leaves in the count accumulator. -/
def out0_B_4 (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S80x1024 .f32) (x1 : Vec F S32x80x1024 .f32) (x2 : Vec F S32x80 .i32) (xo3 xo4 : Vec F S1x8x128 .f32) : Vec F S1x8x128 .f32 :=
  VO0_4.read (Elt F) (VO0_4.writes (Elt F) VO0_4.junk (kernelRun0_B c i arg2 harg2 arg3 harg3 arg4 harg4 arg5 harg5 arg6 harg6 hc0 x0 x1 x2 xo3 xo4).1.2)

/-! ## The accumulation over the grid points -/

/-- What the two accumulator buffers hold after the body at position `n`: at the first tile of a half case A's
    contents; at a later tile case B's, over what position `n - 1` left. -/
def outsAt0 (c : Dev nD) : (n : ℕ) → n < cfg0.N → Vec F S1x8x128 .f32 × Vec F S1x8x128 .f32
  | 0, hn =>
    (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩),
     out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 32 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2)

/-- At a first tile: case A's contents. -/
theorem outsAt0_A (c : Dev nD) (t : Fin cfg0.N) (h0 : t.val % 32 = 0) :
    outsAt0 m c t.val t.isLt =
      (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t),
       out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)) := by
  obtain ⟨n, hn⟩ := t
  cases n with
  | zero => exact rfl
  | succ n => exact (dif_pos h0).trans rfl

/-- At a later tile: case B's contents over what the point before left. -/
theorem outsAt0_B (c : Dev nD) (t : Fin cfg0.N) (h0 : ¬t.val % 32 = 0) :
    outsAt0 m c t.val t.isLt =
      (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t)
          (outsAt0 m c (t.val - 1) (Nat.lt_of_le_of_lt (Nat.sub_le _ _) t.isLt)).1 (outsAt0 m c (t.val - 1) (Nat.lt_of_le_of_lt (Nat.sub_le _ _) t.isLt)).2,
       out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t)
          (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input buffer at its block and the two
    accumulator buffers at `outsAt0`; the invariant is the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later tile of a half an accumulator's staging buffer holds what the body left at the point before: the
    point is not the first, and the buffer was not written back between (write-backs follow the last tile only). -/
theorem before0_3_B (c : Dev nD) (t : Fin cfg0.N) (h0 : ¬t.val % 32 = 0) (d) :
    (dats m 0 c).before 3 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]
theorem before0_4_B (c : Dev nD) (t : Fin cfg0.N) (h0 : ¬t.val % 32 = 0) (d) :
    (dats m 0 c).before 4 t d = (outsAt0 m c (t.val - 1) (Nat.lt_of_le_of_lt (Nat.sub_le _ _) t.isLt)).2 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' buffers hold their blocks; the closed form of the branch condition says which
    case the point is in; at a later tile the accumulators hold what the point before left; so that case's run applies,
    and its pieces, covering, read back as `outsAt0`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 32 = 0
  · rw [outsAt0_A m c t h0]
    dsimp only
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _)
  · rw [outsAt0_B m c t h0]
    dsimp only
    simp only [before0_3_B m c t h0, before0_4_B m c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) _ _).2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; every array of the pipeline ends at what the library
    computes from the proof data, every buffer the lines after the region write at those lines' results, every
    other buffer as the region found it. -/
theorem run_main : θ_run defs (onTc (τ := τ) (main (F := F))) (s₀ m ρ)
    (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.TileLoopI.lean ====
/-
  The body's counted loop as a two-step fold.

  The loop runs two trips over a 32-row feature block and its 32-row label block: trip `k` reads rows
  `16·k … 16·k + 15` of each, and adds that sub-tile's weighted sum of squared distances to the first carried 1×1
  value and its count of positive labels to the second. Both carried values start at zero.
-/
import proofs.«158026_j57853209477371_2_alg».proof.Proof.Gen.KernelIdeal.Skeleton
import Idealize.ShloMosaic.Lib.Pipeline.FrameBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip: the two payloads of the loop's region on the sub-blocks trip `k` loads. -/
def tripAt (x0 : Vec F S80x1024 .f32) (x1 : Vec F S32x80x1024 .f32) (x2 : Vec F S32x80 .i32) (k : Fin k0_t1_loop.trips)
    (acc : FVec F S1x1 .f32 × FVec F S1x1 .f32) : FVec F S1x1 .f32 × FVec F S1x1 .f32 :=
  (k0_pay6 x0 acc.1 (View.ld x1 (Rect.unit (s := S32x80x1024) (k0_off1 k) S16x80x1024.size (k0_off1_inb k)))
      (View.ld x2 (Rect.unit (s := S32x80) (k0_off2 k) S16x80.size (k0_off2_inb k))),
   k0_pay7 acc.2 (View.ld x2 (Rect.unit (s := S32x80) (k0_off2 k) S16x80.size (k0_off2_inb k))))

/-- The loop has two trips. -/
theorem trips_eq : k0_t1_loop.trips = 2 := by decide

/-- The loop: trip 0 then trip 1, from the pair of zero 1×1 values. -/
def tileLoop (x0 : Vec F S80x1024 .f32) (x1 : Vec F S32x80x1024 .f32) (x2 : Vec F S32x80 .i32) : FVec F S1x1 .f32 × FVec F S1x1 .f32 :=
  tripAt x0 x1 x2 ⟨1, by rw [trips_eq]; decide⟩ (tripAt x0 x1 x2 ⟨0, by rw [trips_eq]; decide⟩ (k0_pay3 (F := F), k0_pay4 (F := F)))

end Cert.KernelIdeal.Body

end
-- ==== Proof.OutsEqI.lean ====
/-
  What each case leaves in the accumulator blocks, in closed form.

  The loop's carried pair after its two trips is the two-step fold `tileLoop` of the point's three input blocks.
  Case B leaves each accumulator block at "previous block + the fold's component, broadcast"; case A the same over
  the zero block it has just stored.
-/
import proofs.«158026_j57853209477371_2_alg».proof.Proof.BodyDataI
import proofs.«158026_j57853209477371_2_alg».proof.Proof.TileLoopI
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip of the loop, as the run found it, is the pair of the region's two payloads on the sub-blocks it loads. -/
theorem tripR_eq (𝒱 : Variants) (c : Dev nD) (bd : Option 𝒱.V) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (v3 : Vec F S80x1024 .f32)
    (X_arg3 : BufTy.Contents (Elt F) arg3.view.ty) (X_arg4 : BufTy.Contents (Elt F) arg4.view.ty) (k : Fin k0_t1_loop.trips)
    (acc : FVec F S1x1 .f32 × FVec F S1x1 .f32) :
    tripR_k0_t1 (F := F) 𝒱 c bd i arg2 harg2 arg3 harg3 arg4 harg4 arg5 harg5 arg6 harg6 v3 X_arg3 X_arg4 k acc
      = (k0_pay6 v3 acc.1 (View.readAt (Elt F) arg3.view (Rect.unit (s := S32x80x1024) (k0_off1 k) S16x80x1024.size (k0_off1_inb k)).toLoadRect X_arg3)
            (View.readAt (Elt F) arg4.view (Rect.unit (s := S32x80) (k0_off2 k) S16x80.size (k0_off2_inb k)).toLoadRect X_arg4),
         k0_pay7 acc.2 (View.readAt (Elt F) arg4.view (Rect.unit (s := S32x80) (k0_off2 k) S16x80.size (k0_off2_inb k)).toLoadRect X_arg4)) := by
  unfold tripR_k0_t1 trip_k0_t1
  rfl

theorem hz2 : (![0, 0] : Fin 2 → Nat) = fun _ => 0 := by funext a; fin_cases a <;> rfl
theorem hz3 : (![0, 0, 0] : Fin 3 → Nat) = fun _ => 0 := by funext a; fin_cases a <;> rfl

/-- The carried pair after the loop, on whole buffers holding `x0`, `x1`, `x2`, is the two-step fold. -/
theorem st_two (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole)
    (x0 : Vec F S80x1024 .f32) (x1 : Vec F S32x80x1024 .f32) (x2 : Vec F S32x80 .i32) :
    st_k0_t1 (F := F) Variants.none c none i arg2 harg2 arg3 harg3 arg4 harg4 arg5 harg5 arg6 harg6
        (View.readAt (Elt F) arg2.view (Rect.unit (s := S80x1024) ![0, 0] S80x1024.size inb_S80x1024_S80x1024_0_0).toLoadRect (harg2.unread x0))
        (harg3.unread x1) (harg4.unread x2) (k0_pay3 (F := F), k0_pay4 (F := F)) (Scf.trips (0#32) (Scalar.addi 0#32 2#32) 1#32)
      = tileLoop x0 x1 x2 := by
  have h2 : Scf.trips (0#32) (Scalar.addi 0#32 2#32) 1#32 = 2 := by decide
  rw [h2]
  refine (st_k0_t1_succ (F := F) Variants.none c none i arg2 harg2 arg3 harg3 arg4 harg4 arg5 harg5 arg6 harg6 _ _ _ _ ⟨1, by rw [trips_eq]; decide⟩).trans ?_
  rw [tripR_eq]
  refine (congrArg (fun a => (k0_pay6 _ (Prod.fst a) _ _, k0_pay7 (Prod.snd a) _)) ((st_k0_t1_succ (F := F) Variants.none c none i arg2 harg2 arg3 harg3 arg4 harg4 arg5 harg5 arg6 harg6 _ _ _ _ ⟨0, by rw [trips_eq]; decide⟩).trans (tripR_eq ..))).trans ?_
  unfold tileLoop tripAt
  simp only [View.readAt_eq_ld, harg2.read_unread, harg3.read_unread, harg4.read_unread, View.ld_unit_zero (S := S80x1024) hz2]
  rfl

/-- Case B, sum accumulator: the previous block plus the fold's first component. -/
theorem out0_B_3_eq (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S80x1024 .f32) (x1 : Vec F S32x80x1024 .f32) (x2 : Vec F S32x80 .i32) (xo3 xo4 : Vec F S1x8x128 .f32) :
    out0_B_3 c i arg2 harg2 arg3 harg3 arg4 harg4 arg5 harg5 arg6 harg6 hc0 x0 x1 x2 xo3 xo4 = k0_pay8 (tileLoop x0 x1 x2).1 xo3 := by
  unfold out0_B_3
  rw [View.read_writes_junk_eq_canon]
  unfold kernelRun0_B
  dsimp only
  rw [View.canon_unit_zero hz3, st_two]
  simp only [View.readAt_eq_ld, harg5.read_unread, View.ld_unit_zero (S := S1x8x128) hz3]

/-- Case B, count accumulator. -/
theorem out0_B_4_eq (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S80x1024 .f32) (x1 : Vec F S32x80x1024 .f32) (x2 : Vec F S32x80 .i32) (xo3 xo4 : Vec F S1x8x128 .f32) :
    out0_B_4 c i arg2 harg2 arg3 harg3 arg4 harg4 arg5 harg5 arg6 harg6 hc0 x0 x1 x2 xo3 xo4 = k0_pay9 (tileLoop x0 x1 x2).2 xo4 := by
  unfold out0_B_4
  rw [View.read_writes_junk_eq_canon]
  unfold kernelRun0_B
  dsimp only
  rw [View.canon_unit_zero hz3, st_two]
  simp only [View.readAt_eq_ld, harg6.read_unread, View.ld_unit_zero (S := S1x8x128) hz3]

/-- Case A, sum accumulator: the zero block plus the fold's first component. -/
theorem out0_A_3_eq (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S80x1024 .f32) (x1 : Vec F S32x80x1024 .f32) (x2 : Vec F S32x80 .i32) :
    out0_A_3 c i arg2 harg2 arg3 harg3 arg4 harg4 arg5 harg5 arg6 harg6 hc0 x0 x1 x2 = k0_pay8 (tileLoop x0 x1 x2).1 (k0_pay1 (F := F)) := by
  unfold out0_A_3
  rw [View.read_writes_junk_eq_canon]
  unfold kernelRun0_A
  dsimp only
  sl_unfold_words
  rw [View.canon_cons_unit_zero hz3, st_two, View.readCov_unit_zero _ hz3]

/-- Case A, count accumulator. -/
theorem out0_A_4_eq (c : Dev nD) (i : grid0.Coords) (arg2 : Memref sig .tc .vmem S80x1024 .f32) (harg2 : arg2.IsWhole) (arg3 : Memref sig .tc .vmem S32x80x1024 .f32) (harg3 : arg3.IsWhole) (arg4 : Memref sig .tc .vmem S32x80 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S80x1024 .f32) (x1 : Vec F S32x80x1024 .f32) (x2 : Vec F S32x80 .i32) :
    out0_A_4 c i arg2 harg2 arg3 harg3 arg4 harg4 arg5 harg5 arg6 harg6 hc0 x0 x1 x2 = k0_pay9 (tileLoop x0 x1 x2).2 (k0_pay2 (F := F)) := by
  unfold out0_A_4
  rw [View.read_writes_junk_eq_canon]
  unfold kernelRun0_A
  dsimp only
  sl_unfold_words
  rw [View.canon_cons_unit_zero hz3, st_two, View.readCov_unit_zero _ hz3]

end Cert.KernelIdeal.Body

end
-- ==== Proof.PayloadIdeal.lean ====
/-
  The kernel's arithmetic at the ideal values, one value per store or loop yield, read at an index.

  The two accumulator blocks are zero-filled on the first step; each trip of the inner loop adds, to the carried
  `[1,1]` values, the weighted squared distances and the weights of sixteen rows; the last step adds the carried values
  to the blocks. Read at an index, every one of these is a finite sum of extended reals: a shape cast or a broadcast
  re-reads its operand at the matching index, a reduction over one axis is the sum over that axis's coordinates (its
  initial word is the zero word, the sum's neutral element), and the weight — the signed reading of the
  zero-extension to 32 bits of a one-bit comparison — is the unsigned reading of the bit itself, one or zero.
-/
import proofs.«158026_j57853209477371_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadIdeal

open Cert.KernelIdeal Cert.KernelIdeal.Gen Idealize.ShloMosaic Idealize.ShloMosaic.ValueIdx

/-! ## The zero fills -/

/-- The first accumulator block's fill is zero everywhere. -/
theorem pay1_apply (i : S1x8x128.Idx) : k0_pay1 (F := Ideal) i = 0 := by
  show Ideal.ofBits .f32 0x00000000#32 = 0
  exact Ideal.ofBits_zero_f32

/-- The second accumulator block's fill is zero everywhere. -/
theorem pay2_apply (i : S1x8x128.Idx) : k0_pay2 (F := Ideal) i = 0 := by
  show Ideal.ofBits .f32 0x00000000#32 = 0
  exact Ideal.ofBits_zero_f32

/-- The carried total starts at zero. -/
theorem pay3_apply (j : S1x1.Idx) : k0_pay3 (F := Ideal) j = 0 := by
  show Ideal.ofBits .f32 0x00000000#32 = 0
  exact Ideal.ofBits_zero_f32

/-- The carried count starts at zero. -/
theorem pay4_apply (j : S1x1.Idx) : k0_pay4 (F := Ideal) j = 0 := by
  show Ideal.ofBits .f32 0x00000000#32 = 0
  exact Ideal.ofBits_zero_f32

/-! ## The last step: the carried value added to every element of a block -/

/-- A `[1,1,1]` array broadcast to `[1,8,128]` reads its one element everywhere. -/
theorem broadcastTo_111_apply {α : Type} (w : S1x1x1.Idx → α) (h : S1x1x1.Broadcasts S1x8x128) (i : S1x8x128.Idx) :
    broadcastTo S1x8x128 w h i = w (ix3 (0 : Fin 1) (0 : Fin 1) (0 : Fin 1)) :=
  broadcastTo_apply w h i (ix3 (0 : Fin 1) (0 : Fin 1) (0 : Fin 1)) (fun a => by
    match a with
    | ⟨0, _⟩ => rfl
    | ⟨1, _⟩ => rfl
    | ⟨2, _⟩ => rfl)

/-- The block plus the carried value: the common form of the two last stores. -/
theorem addCarried_apply (c : FVec Ideal S1x1 .f32) (v : Vec Ideal S1x8x128 .f32) (i : S1x8x128.Idx) :
    addf (shapeCast S1x8x128 v shapeCasts_S1x8x128_S1x8x128)
      (broadcastTo S1x8x128
        (shapeCast S1x1x1 (shapeCast S1x1x1 c shapeCasts_S1x1_S1x1x1) shapeCasts_S1x1x1_S1x1x1)
        broadcasts_S1x1x1_S1x8x128) i = v i + c (ix2 0 0) := by
  rw [addf_apply, shapeCast_self, broadcastTo_111_apply, shapeCast_self]
  exact congrArg (v i + ·) (shapeCast_ab_1ab_apply c shapeCasts_S1x1_S1x1x1 0 0 0)

/-- The first block's last store: the block plus the carried total. -/
theorem pay8_apply (v7_0 : FVec Ideal S1x1 .f32) (v8 : Vec Ideal S1x8x128 .f32) (i : S1x8x128.Idx) :
    k0_pay8 (F := Ideal) v7_0 v8 i = v8 i + v7_0 (ix2 0 0) :=
  addCarried_apply v7_0 v8 i

/-- The second block's last store: the block plus the carried count. -/
theorem pay9_apply (v7_1 : FVec Ideal S1x1 .f32) (v15 : Vec Ideal S1x8x128 .f32) (i : S1x8x128.Idx) :
    k0_pay9 (F := Ideal) v7_1 v15 i = v15 i + v7_1 (ix2 0 0) :=
  addCarried_apply v7_1 v15 i

/-! ## The weight: a one-bit comparison read as a number -/

/-- The signed reading of a bit zero-extended to 32 bits is the unsigned reading of the bit: both are one for the bit
    `1` and zero for the bit `0`. -/
theorem sitofp_setWidth_bit (b : BitVec 1) :
    FloatOps.sitofp (F := Ideal) .f32 (b.setWidth 32) = FloatOps.uitofp (F := Ideal) .f32 b := by
  have h : (b.setWidth 32).toInt = (b.toNat : ℤ) := by
    rcases BitVec.eq_zero_or_eq_one b with rfl | rfl <;> decide
  show (((b.setWidth 32).toInt : ℝ) : EReal) = ((b.toNat : ℝ) : EReal)
  rw [h, Int.cast_natCast]

/-- The weight array at an index: one where the label is one, zero elsewhere. -/
theorem pay5_apply (v27 : Vec Ideal S16x80 .i32) (i : S16x80.Idx) :
    k0_pay5 (F := Ideal) v27 i = FloatOps.uitofp (F := Ideal) .f32 (IntOp.cmpi .eq (v27 i) 1#32) :=
  sitofp_setWidth_bit _

/-! ## Shape casts, the row broadcast and the three reductions, at coordinates -/

/-- A `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the 80 classes of a `[16, 80]` array, at row `r`. -/
theorem reduceClasses_apply (x : FVec Ideal S16x80 .f32) (r : Fin 16) :
    multiReduction (F := Ideal) .add [1] S16 x 0x00000000#32 reduces_S16x80_S16 (.inl rfl) rfl (ix1 r)
      = ∑ c : Fin 80, x (ix2 r c) := by
  refine (Ideal.multiReduction_add_single x _ reduces_S16x80_S16 (.inl rfl) rfl (ix1 r)).trans ?_
  refine Finset.sum_congr rfl (fun c _ => congrArg x ?_)
  funext a
  match a with
  | ⟨0, _⟩ => rfl
  | ⟨1, _⟩ => rfl

/-- The sum over the 16 rows of a `[16, 1]` column. -/
theorem reduceRows_apply (x : FVec Ideal S16x1 .f32) (u : Fin 1) :
    multiReduction (F := Ideal) .add [0] S1 x 0x00000000#32 reduces_S16x1_S1 (.inl rfl) rfl (ix1 u)
      = ∑ r : Fin 16, x (ix2 r u) := by
  refine (Ideal.multiReduction_add_single x _ reduces_S16x1_S1 (.inl rfl) rfl (ix1 u)).trans ?_
  refine Finset.sum_congr rfl (fun r _ => congrArg x ?_)
  funext a
  match a with
  | ⟨0, _⟩ => rfl
  | ⟨1, _⟩ => rfl

/-- A carried `[1,1]` value plus the sum of a `[16, 80]` tile taken classes first, then rows: the common tail of the
    two loop yields. -/
theorem addTile_apply (acc : FVec Ideal S1x1 .f32) (w : FVec Ideal S16x80 .f32) (j : S1x1.Idx) :
    addf acc
      (shapeCast S1x1
        (multiReduction (F := Ideal) .add [0] S1
          (shapeCast S16x1
            (multiReduction (F := Ideal) .add [1] S16 w 0x00000000#32 reduces_S16x80_S16 (.inl rfl) rfl)
            shapeCasts_S16_S16x1)
          0x00000000#32 reduces_S16x1_S1 (.inl rfl) rfl)
        shapeCasts_S1_S1x1) j
      = acc j + ∑ r : Fin 16, ∑ c : Fin 80, w (ix2 r c) := by
  obtain ⟨p, q, rfl⟩ : ∃ (p : Fin 1) (q : Fin 1), j = ix2 p q := ⟨j 0, j 1, eq_ix2 j⟩
  rw [addf_apply, shapeCast_a_1a_apply, reduceRows_apply]
  refine congrArg (acc (ix2 p q) + ·) (Finset.sum_congr rfl (fun r _ => ?_))
  rw [shapeCast_a_a1_apply, reduceClasses_apply]

/-- One trip's count: the carried count plus the sixteen rows' weights. -/
theorem pay7_apply (arg9 : FVec Ideal S1x1 .f32) (v27 : Vec Ideal S16x80 .i32) (j : S1x1.Idx) :
    k0_pay7 (F := Ideal) arg9 v27 j
      = arg9 j + ∑ r : Fin 16, ∑ c : Fin 80, FloatOps.uitofp (F := Ideal) .f32 (IntOp.cmpi .eq (v27 (ix2 r c)) 1#32) := by
  refine (addTile_apply arg9 (k0_pay5 v27) j).trans ?_
  refine congrArg (arg9 j + ·) (Finset.sum_congr rfl (fun r _ => Finset.sum_congr rfl (fun c _ => ?_)))
  exact pay5_apply v27 (ix2 r c)

/-! ## One trip's total -/

/-- A `[1, 80, 1024]` array broadcast over 16 rows reads, at `(r, c, d)`, its one slab at `(c, d)`. -/
theorem broadcastRows_apply {α : Type} (w : S1x80x1024.Idx → α) (h : S1x80x1024.Broadcasts S16x80x1024)
    (r : Fin 16) (c : Fin 80) (d : Fin 1024) :
    broadcastTo S16x80x1024 w h (ix3 r c d) = w (ix3 (0 : Fin 1) c d) :=
  broadcastTo_apply w h (ix3 r c d) (ix3 (0 : Fin 1) c d) (fun a => by
    match a with
    | ⟨0, _⟩ => rfl
    | ⟨1, _⟩ => rfl
    | ⟨2, _⟩ => rfl)

/-- The sum over the 1024 lanes of a `[16, 80, 1024]` array, at `(r, c)`. -/
theorem reduceLanes_apply (x : FVec Ideal S16x80x1024 .f32) (r : Fin 16) (c : Fin 80) :
    multiReduction (F := Ideal) .add [2] S16x80 x 0x00000000#32 reduces_S16x80x1024_S16x80 (.inl rfl) rfl (ix2 r c)
      = ∑ d : Fin 1024, x (ix3 r c d) := by
  refine (Ideal.multiReduction_add_single x _ reduces_S16x80x1024_S16x80 (.inl rfl) rfl (ix2 r c)).trans ?_
  refine Finset.sum_congr rfl (fun d _ => congrArg x ?_)
  funext a
  match a with
  | ⟨0, _⟩ => rfl
  | ⟨1, _⟩ => rfl
  | ⟨2, _⟩ => rfl

/-- One trip's total: the carried total plus, over the sixteen rows and the 80 classes, the squared distance of the
    row's class feature to the class prototype times the weight. -/
theorem pay6_apply (v3 : Vec Ideal S80x1024 .f32) (arg8 : FVec Ideal S1x1 .f32) (v25 : Vec Ideal S16x80x1024 .f32)
    (v27 : Vec Ideal S16x80 .i32) (j : S1x1.Idx) :
    k0_pay6 (F := Ideal) v3 arg8 v25 v27 j
      = arg8 j + ∑ r : Fin 16, ∑ c : Fin 80,
          (∑ d : Fin 1024, (v25 (ix3 r c d) - v3 (ix2 c d)) * (v25 (ix3 r c d) - v3 (ix2 c d)))
            * FloatOps.uitofp (F := Ideal) .f32 (IntOp.cmpi .eq (v27 (ix2 r c)) 1#32) := by
  unfold k0_pay6
  refine (addTile_apply arg8 _ j).trans ?_
  refine congrArg (arg8 j + ·) (Finset.sum_congr rfl (fun r _ => Finset.sum_congr rfl (fun c _ => ?_)))
  rw [mulf_apply, pay5_apply, reduceLanes_apply]
  refine congrArg (· * _) (Finset.sum_congr rfl (fun d _ => ?_))
  rw [mulf_apply, subf_apply, broadcastRows_apply, shapeCast_ab_1ab_apply]

end Cert.KernelIdeal.PayloadIdeal

end
-- ==== Proof.TileLoopIdeal.lean ====
/-
  The body's two-trip loop at the ideal values.

  Trip `h` reads rows `16·h … 16·h + 15` of the 32-row feature block and label block; with both carried values starting
  at zero, after the two trips the first carried value is the sum over the 32 rows and the 80 classes of the squared
  distance to the class prototype times the weight, and the second is the sum of the weights.
-/
import proofs.«158026_j57853209477371_2_alg».proof.Proof.TileLoopI
import proofs.«158026_j57853209477371_2_alg».proof.Proof.PayloadIdeal

noncomputable section

namespace Cert.KernelIdeal.PayloadIdeal

open Cert.KernelIdeal Cert.KernelIdeal.Gen Idealize.ShloMosaic Idealize.ShloMosaic.ValueIdx

/-- Row `r` of sub-tile `h` of a 32-row block. -/
def rowIn (h : Fin 2) (r : Fin 16) : Fin 32 := ⟨h.val * 16 + r.val, by omega⟩

/-- The feature sub-block trip `h` loads reads, at `(r, c, d)`, the block at row `16·h + r`. -/
theorem ld_features (x1 : Vec Ideal S32x80x1024 .f32) (h : Fin 2) (hk : h.val < k0_t1_loop.trips)
    (r : Fin 16) (c : Fin 80) (d : Fin 1024) :
    View.ld x1 (Rect.unit (s := S32x80x1024) (k0_off1 ⟨h.val, hk⟩) S16x80x1024.size (k0_off1_inb ⟨h.val, hk⟩)) (ix3 r c d)
      = x1 (ix3 (rowIn h r) c d) := by
  refine congrArg x1 (funext fun a => Fin.ext ?_)
  match a with
  | ⟨0, _⟩ =>
    show k0_off1 ⟨h.val, hk⟩ 0 + 1 * r.val = h.val * 16 + r.val
    rw [k0_off1_eq]
    show 16 * h.val + 1 * r.val = h.val * 16 + r.val
    omega
  | ⟨1, _⟩ =>
    show k0_off1 ⟨h.val, hk⟩ 1 + 1 * c.val = c.val
    rw [k0_off1_eq]
    show 0 + 1 * c.val = c.val
    omega
  | ⟨2, _⟩ =>
    show k0_off1 ⟨h.val, hk⟩ 2 + 1 * d.val = d.val
    rw [k0_off1_eq]
    show 0 + 1 * d.val = d.val
    omega

/-- The label sub-block trip `h` loads reads, at `(r, c)`, the block at row `16·h + r`. -/
theorem ld_labels (x2 : Vec Ideal S32x80 .i32) (h : Fin 2) (hk : h.val < k0_t1_loop.trips) (r : Fin 16) (c : Fin 80) :
    View.ld x2 (Rect.unit (s := S32x80) (k0_off2 ⟨h.val, hk⟩) S16x80.size (k0_off2_inb ⟨h.val, hk⟩)) (ix2 r c)
      = x2 (ix2 (rowIn h r) c) := by
  refine congrArg x2 (funext fun a => Fin.ext ?_)
  match a with
  | ⟨0, _⟩ =>
    show k0_off2 ⟨h.val, hk⟩ 0 + 1 * r.val = h.val * 16 + r.val
    rw [k0_off2_eq]
    show 16 * h.val + 1 * r.val = h.val * 16 + r.val
    omega
  | ⟨1, _⟩ =>
    show k0_off2 ⟨h.val, hk⟩ 1 + 1 * c.val = c.val
    rw [k0_off2_eq]
    show 0 + 1 * c.val = c.val
    omega

/-- Trip `h` adds sub-tile `h`'s weighted squared distances to the first carried value. -/
theorem tripAt_fst (x0 : Vec Ideal S80x1024 .f32) (x1 : Vec Ideal S32x80x1024 .f32) (x2 : Vec Ideal S32x80 .i32)
    (h : Fin 2) (hk : h.val < k0_t1_loop.trips) (acc : FVec Ideal S1x1 .f32 × FVec Ideal S1x1 .f32) (j : S1x1.Idx) :
    (Cert.KernelIdeal.Body.tripAt (F := Ideal) x0 x1 x2 ⟨h.val, hk⟩ acc).1 j
      = acc.1 j + ∑ r : Fin 16, ∑ c : Fin 80,
          (∑ d : Fin 1024, (x1 (ix3 (rowIn h r) c d) - x0 (ix2 c d)) * (x1 (ix3 (rowIn h r) c d) - x0 (ix2 c d)))
            * FloatOps.uitofp (F := Ideal) .f32 (IntOp.cmpi .eq (x2 (ix2 (rowIn h r) c)) 1#32) := by
  refine (pay6_apply x0 acc.1 _ _ j).trans ?_
  refine congrArg (acc.1 j + ·) (Finset.sum_congr rfl (fun r _ => Finset.sum_congr rfl (fun c _ => ?_)))
  rw [ld_labels x2 h hk r c]
  refine congrArg (· * _) (Finset.sum_congr rfl (fun d _ => ?_))
  rw [ld_features x1 h hk r c d]

/-- Trip `h` adds sub-tile `h`'s weights to the second carried value. -/
theorem tripAt_snd (x0 : Vec Ideal S80x1024 .f32) (x1 : Vec Ideal S32x80x1024 .f32) (x2 : Vec Ideal S32x80 .i32)
    (h : Fin 2) (hk : h.val < k0_t1_loop.trips) (acc : FVec Ideal S1x1 .f32 × FVec Ideal S1x1 .f32) (j : S1x1.Idx) :
    (Cert.KernelIdeal.Body.tripAt (F := Ideal) x0 x1 x2 ⟨h.val, hk⟩ acc).2 j
      = acc.2 j + ∑ r : Fin 16, ∑ c : Fin 80,
          FloatOps.uitofp (F := Ideal) .f32 (IntOp.cmpi .eq (x2 (ix2 (rowIn h r) c)) 1#32) := by
  refine (pay7_apply acc.2 _ j).trans ?_
  refine congrArg (acc.2 j + ·) (Finset.sum_congr rfl (fun r _ => Finset.sum_congr rfl (fun c _ => ?_)))
  rw [ld_labels x2 h hk r c]

/-- After the two trips the first carried value is the 32 rows' weighted squared distances. -/
theorem tileLoop_fst (x0 : Vec Ideal S80x1024 .f32) (x1 : Vec Ideal S32x80x1024 .f32) (x2 : Vec Ideal S32x80 .i32)
    (j : S1x1.Idx) :
    (Cert.KernelIdeal.Body.tileLoop (F := Ideal) x0 x1 x2).1 j
      = ∑ h : Fin 2, ∑ r : Fin 16, ∑ c : Fin 80,
          (∑ d : Fin 1024, (x1 (ix3 (rowIn h r) c d) - x0 (ix2 c d)) * (x1 (ix3 (rowIn h r) c d) - x0 (ix2 c d)))
            * FloatOps.uitofp (F := Ideal) .f32 (IntOp.cmpi .eq (x2 (ix2 (rowIn h r) c)) 1#32) := by
  have h0 : (0 : Fin 2).val < k0_t1_loop.trips := by rw [Cert.KernelIdeal.Body.trips_eq]; decide
  have h1 : (1 : Fin 2).val < k0_t1_loop.trips := by rw [Cert.KernelIdeal.Body.trips_eq]; decide
  rw [Fin.sum_univ_two]
  refine (tripAt_fst x0 x1 x2 1 h1 _ j).trans ?_
  refine congrArg (· + _) ?_
  refine (tripAt_fst x0 x1 x2 0 h0 _ j).trans ?_
  exact (congrArg (· + _) (pay3_apply j)).trans (zero_add _)

/-- After the two trips the second carried value is the 32 rows' weights. -/
theorem tileLoop_snd (x0 : Vec Ideal S80x1024 .f32) (x1 : Vec Ideal S32x80x1024 .f32) (x2 : Vec Ideal S32x80 .i32)
    (j : S1x1.Idx) :
    (Cert.KernelIdeal.Body.tileLoop (F := Ideal) x0 x1 x2).2 j
      = ∑ h : Fin 2, ∑ r : Fin 16, ∑ c : Fin 80,
          FloatOps.uitofp (F := Ideal) .f32 (IntOp.cmpi .eq (x2 (ix2 (rowIn h r) c)) 1#32) := by
  have h0 : (0 : Fin 2).val < k0_t1_loop.trips := by rw [Cert.KernelIdeal.Body.trips_eq]; decide
  have h1 : (1 : Fin 2).val < k0_t1_loop.trips := by rw [Cert.KernelIdeal.Body.trips_eq]; decide
  rw [Fin.sum_univ_two]
  refine (tripAt_snd x0 x1 x2 1 h1 _ j).trans ?_
  refine congrArg (· + _) ?_
  refine (tripAt_snd x0 x1 x2 0 h0 _ j).trans ?_
  exact (congrArg (· + _) (pay4_apply j)).trans (zero_add _)

end Cert.KernelIdeal.PayloadIdeal

end
-- ==== Proof.AccumI.lean ====
/-
  The accumulation over the grid points, in closed form on the extended reals.

  Write `T n` for the pair (weighted sum of squared distances, count of positive labels) of the 32 sample rows of
  grid point `n`. After the body at point `n` every entry of the first accumulator block is
  `T (n − n % 32) + … + T n` (first components) — the tiles of `n`'s half up to `n` — and every entry of the
  second block the same sum of second components: at the first tile of a half the block is `0 + T n`, at a later
  tile what the tile before left plus `T n`. Only `0 + x = x` and the sum over an initial segment are used.
-/
import proofs.«158026_j57853209477371_2_alg».proof.Proof.OutsEqI
import proofs.«158026_j57853209477371_2_alg».proof.Proof.TileLoopIdeal
import proofs.«158026_j57853209477371_2_alg».proof.Proof.PayloadIdeal

set_option maxRecDepth 16384

noncomputable section

namespace Cert.KernelIdeal.Body

open Cert.KernelIdeal Cert.KernelIdeal.Gen Cert.KernelIdeal.PayloadIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- Grid point `n`'s pair of partial sums, read off the fold at the point's three input blocks (zero past the grid). -/
def tileAt (c : Dev nD) (n : ℕ) : EReal × EReal :=
  if h : n < cfg0.N then
    ((tileLoop (F := Ideal) (iblk m c 0 ⟨n, h⟩) (iblk m c 1 ⟨n, h⟩) (iblk m c 2 ⟨n, h⟩)).1 (ix2 (0 : Fin 1) (0 : Fin 1)),
     (tileLoop (F := Ideal) (iblk m c 0 ⟨n, h⟩) (iblk m c 1 ⟨n, h⟩) (iblk m c 2 ⟨n, h⟩)).2 (ix2 (0 : Fin 1) (0 : Fin 1)))
  else (0, 0)

/-- At the first tile of a half both blocks are the point's own pair. -/
theorem outs_first (c : Dev nD) (t : Fin cfg0.N) (h0 : t.val % 32 = 0) (i : S1x8x128.Idx) :
    (outsAt0 m c t.val t.isLt).1 i = (tileAt m c t.val).1 ∧ (outsAt0 m c t.val t.isLt).2 i = (tileAt m c t.val).2 := by
  rw [outsAt0_A m c t h0]
  dsimp only
  rw [out0_A_3_eq, out0_A_4_eq, pay8_apply, pay9_apply, pay1_apply, pay2_apply, zero_add, zero_add]
  unfold tileAt
  rw [dif_pos t.isLt]
  exact ⟨rfl, rfl⟩

/-- At a later tile: what the tile before left, plus the point's own pair. -/
theorem outs_later (c : Dev nD) (t : Fin cfg0.N) (h0 : ¬t.val % 32 = 0) (i : S1x8x128.Idx) :
    (outsAt0 m c t.val t.isLt).1 i = (outsAt0 m c (t.val - 1) (Nat.lt_of_le_of_lt (Nat.sub_le _ _) t.isLt)).1 i + (tileAt m c t.val).1
    ∧ (outsAt0 m c t.val t.isLt).2 i = (outsAt0 m c (t.val - 1) (Nat.lt_of_le_of_lt (Nat.sub_le _ _) t.isLt)).2 i + (tileAt m c t.val).2 := by
  rw [outsAt0_B m c t h0]
  dsimp only
  rw [out0_B_3_eq, out0_B_4_eq, pay8_apply, pay9_apply]
  unfold tileAt
  rw [dif_pos t.isLt]
  exact ⟨rfl, rfl⟩

/-- The closed form: the sum of the pairs of the tiles of the point's half, up to the point. -/
theorem outs_closed (c : Dev nD) : ∀ (n : ℕ) (hn : n < cfg0.N) (i : S1x8x128.Idx),
    (outsAt0 m c n hn).1 i = ∑ k ∈ Finset.range (n % 32 + 1), (tileAt m c (n - n % 32 + k)).1
    ∧ (outsAt0 m c n hn).2 i = ∑ k ∈ Finset.range (n % 32 + 1), (tileAt m c (n - n % 32 + k)).2 := by
  intro n
  induction n with
  | zero =>
    intro hn i
    have h := outs_first m c ⟨0, hn⟩ (Nat.zero_mod _) i
    simp only [Nat.zero_mod, Nat.sub_zero, Nat.zero_add, Finset.sum_range_one, Nat.add_zero]
    exact h
  | succ n ih =>
    intro hn i
    by_cases h0 : (n + 1) % 32 = 0
    · have h := outs_first m c ⟨n + 1, hn⟩ h0 i
      rw [h0]
      simp only [Nat.sub_zero, Nat.zero_add, Finset.sum_range_one, Nat.add_zero]
      exact h
    · have h := outs_later m c ⟨n + 1, hn⟩ h0 i
      have ihn := ih (Nat.lt_of_succ_lt hn) i
      have e1 : (n + 1) % 32 = n % 32 + 1 := by omega
      have e2 : n + 1 - (n % 32 + 1) = n - n % 32 := by omega
      have e3 : n - n % 32 + (n % 32 + 1) = n + 1 := by omega
      refine ⟨?_, ?_⟩
      · rw [e1, e2, Finset.sum_range_succ, e3, ← ihn.1]; exact h.1
      · rw [e1, e2, Finset.sum_range_succ, e3, ← ihn.2]; exact h.2

end Cert.KernelIdeal.Body

end
-- ==== Proof.BlocksI.lean ====
/-
  The geometry of the one pipeline's blocks.

  The grid has 2 × 32 points; point t is at half t / 32, tile t % 32. The prototypes' window is its whole array at
  every point. The features' block at point t is rows t · 32 … t · 32 + 31 of the array, and so is the labels'. Each of
  the two results' blocks at point t is row t / 32 of its [2, 8, 128] array, and the points written back (those with
  t % 32 = 31) cover both rows. An element of a block sits in the array, on each axis, at block index × block size +
  its own coordinate.
-/
import proofs.«158026_j57853209477371_2_alg».proof.Proof.BodyDataI
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The block indices -/

/-- The index maps, decided over the grid: the prototypes' block index is (0, 0); the features' (t, 0, 0); the
    labels' (t, 0); each result's (t / 32, 0, 0). -/
theorem idx_facts : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val / 32 ∧ win0_3.index t (1 : Fin 3) = 0 ∧ win0_3.index t (2 : Fin 3) = 0
    ∧ win0_4.index t (0 : Fin 3) = t.val / 32 ∧ win0_4.index t (1 : Fin 3) = 0 ∧ win0_4.index t (2 : Fin 3) = 0 :=
  (by decide +kernel : ∀ t : Fin grid0.N, _)

/-! ## The input blocks read at an index -/

/-- The prototypes' block at any point is the whole array. -/
theorem iblk0_apply (c : Dev nD) (t : Fin cfg0.N) (p : Fin 80) (d : Fin 1024) :
    (iblk m c 0 t : Vec F S80x1024 .f32) (ix2 p d) = V m c main_arg0 (ix2 p d) := by
  obtain ⟨e0, e1, -⟩ := idx_facts t
  show V m c main_arg0 (((cfg0.win 0).blk t).view.emb (ix2 p d)) = _
  refine congrArg (V m c main_arg0) ?_
  funext q; apply Fin.ext
  match q with
  | ⟨0, _⟩ => show win0_0.index t (0 : Fin 2) * 80 + 1 * p.val = p.val; omega
  | ⟨1, _⟩ => show win0_0.index t (1 : Fin 2) * 1024 + 1 * d.val = d.val; omega

/-- The features' block at point t, read at (a, p, d): the array at row t · 32 + a. -/
theorem iblk1_apply (c : Dev nD) (t : Fin cfg0.N) (a : Fin 32) (p : Fin 80) (d : Fin 1024) :
    (iblk m c 1 t : Vec F S32x80x1024 .f32) (ix3 a p d)
      = V m c main_arg1 (ix3 ⟨t.val * 32 + a.val, by have := t.isLt; have : cfg0.N = 64 := N_0; omega⟩ p d) := by
  obtain ⟨-, -, e0, e1, e2, -⟩ := idx_facts t
  show V m c main_arg1 (((cfg0.win 1).blk t).view.emb (ix3 a p d)) = _
  refine congrArg (V m c main_arg1) ?_
  funext q; apply Fin.ext
  match q with
  | ⟨0, _⟩ => show win0_1.index t (0 : Fin 3) * 32 + 1 * a.val = t.val * 32 + a.val; omega
  | ⟨1, _⟩ => show win0_1.index t (1 : Fin 3) * 80 + 1 * p.val = p.val; omega
  | ⟨2, _⟩ => show win0_1.index t (2 : Fin 3) * 1024 + 1 * d.val = d.val; omega

/-- The labels' block at point t, read at (a, p): the array at row t · 32 + a. -/
theorem iblk2_apply (c : Dev nD) (t : Fin cfg0.N) (a : Fin 32) (p : Fin 80) :
    (iblk m c 2 t : Vec F S32x80 .i32) (ix2 a p)
      = V m c main_arg2 (ix2 ⟨t.val * 32 + a.val, by have := t.isLt; have : cfg0.N = 64 := N_0; omega⟩ p) := by
  obtain ⟨-, -, -, -, -, e0, e1, -⟩ := idx_facts t
  show V m c main_arg2 (((cfg0.win 2).blk t).view.emb (ix2 a p)) = _
  refine congrArg (V m c main_arg2) ?_
  funext q; apply Fin.ext
  match q with
  | ⟨0, _⟩ => show win0_2.index t (0 : Fin 2) * 32 + 1 * a.val = t.val * 32 + a.val; omega
  | ⟨1, _⟩ => show win0_2.index t (1 : Fin 2) * 80 + 1 * p.val = p.val; omega

/-! ## The result blocks in their arrays -/

/-- An element of the first result's block at point t sits at row t / 32 of the array. -/
theorem blk3_emb (t : Fin cfg0.N) (y : S1x8x128.Idx) :
    ((cfg0.win 3).blk t).view.emb y
      = (ix3 ⟨t.val / 32, by have := t.isLt; have : cfg0.N = 64 := N_0; omega⟩ ⟨(y 1).val, (y 1).isLt⟩ ⟨(y 2).val, (y 2).isLt⟩ : S2x8x128.Idx) := by
  obtain ⟨-, -, -, -, -, -, -, e0, e1, e2, -⟩ := idx_facts t
  funext q; apply Fin.ext
  match q with
  | ⟨0, _⟩ => show win0_3.index t (0 : Fin 3) * 1 + 1 * (y 0).val = t.val / 32; have hy : (y 0).val < 1 := (y 0).isLt; omega
  | ⟨1, _⟩ => show win0_3.index t (1 : Fin 3) * 8 + 1 * (y 1).val = (y 1).val; omega
  | ⟨2, _⟩ => show win0_3.index t (2 : Fin 3) * 128 + 1 * (y 2).val = (y 2).val; omega

/-- An element of the second result's block at point t sits at row t / 32 of the array. -/
theorem blk4_emb (t : Fin cfg0.N) (y : S1x8x128.Idx) :
    ((cfg0.win 4).blk t).view.emb y
      = (ix3 ⟨t.val / 32, by have := t.isLt; have : cfg0.N = 64 := N_0; omega⟩ ⟨(y 1).val, (y 1).isLt⟩ ⟨(y 2).val, (y 2).isLt⟩ : S2x8x128.Idx) := by
  obtain ⟨-, -, -, -, -, -, -, -, -, -, e0, e1, e2⟩ := idx_facts t
  funext q; apply Fin.ext
  match q with
  | ⟨0, _⟩ => show win0_4.index t (0 : Fin 3) * 1 + 1 * (y 0).val = t.val / 32; have hy : (y 0).val < 1 := (y 0).isLt; omega
  | ⟨1, _⟩ => show win0_4.index t (1 : Fin 3) * 8 + 1 * (y 1).val = (y 1).val; omega
  | ⟨2, _⟩ => show win0_4.index t (2 : Fin 3) * 128 + 1 * (y 2).val = (y 2).val; omega

/-- An index of the first result's array is in point t's block iff each coordinate is in the block's range on its axis. -/
theorem mem_blk3 (t : Fin cfg0.N) (i : S2x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v0_0).slice (win0_3.rect t)).set ↔ _
  rw [View.set_slice_whole, Rect.mem_set_unit]
  exact Iff.rfl

/-- The same for the second result's array. -/
theorem mem_blk4 (t : Fin cfg0.N) (i : S2x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v0_1).slice (win0_4.rect t)).set ↔ _
  rw [View.set_slice_whole, Rect.mem_set_unit]
  exact Iff.rfl

/-- Every index of the first result's array is in the block of a point that is written back: row r is the block of
    point r · 32 + 31, the last tile of half r. -/
theorem cover3 : ∀ i : S2x8x128.Idx, ∃ t : Fin cfg0.N, (cfg0.win 3).flush t = true ∧ i ∈ ((cfg0.win 3).blk t).view.set := by
  intro i
  have hi0 : (i 0).val < 2 := (i 0).isLt
  have hi1 : (i 1).val < 8 := (i 1).isLt
  have hi2 : (i 2).val < 128 := (i 2).isLt
  have hN : cfg0.N = 64 := N_0
  obtain ⟨t, ht⟩ : ∃ t : Fin cfg0.N, t.val = (i 0).val * 32 + 31 := ⟨⟨(i 0).val * 32 + 31, by omega⟩, rfl⟩
  refine ⟨t, (flush0_3 t).mpr (by omega), ?_⟩
  rw [mem_blk3]
  obtain ⟨-, -, -, -, -, -, -, e0, e1, e2, -⟩ := idx_facts t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8 ≤ (i 1).val ∧ (i 1).val < win0_3.index t (1 : Fin 3) * 8 + 8; omega
  | ⟨2, _⟩ => show win0_3.index t (2 : Fin 3) * 128 ≤ (i 2).val ∧ (i 2).val < win0_3.index t (2 : Fin 3) * 128 + 128; omega

/-- Every index of the second result's array likewise. -/
theorem cover4 : ∀ i : S2x8x128.Idx, ∃ t : Fin cfg0.N, (cfg0.win 4).flush t = true ∧ i ∈ ((cfg0.win 4).blk t).view.set := by
  intro i
  have hi0 : (i 0).val < 2 := (i 0).isLt
  have hi1 : (i 1).val < 8 := (i 1).isLt
  have hi2 : (i 2).val < 128 := (i 2).isLt
  have hN : cfg0.N = 64 := N_0
  obtain ⟨t, ht⟩ : ∃ t : Fin cfg0.N, t.val = (i 0).val * 32 + 31 := ⟨⟨(i 0).val * 32 + 31, by omega⟩, rfl⟩
  refine ⟨t, (flush0_4 t).mpr (by omega), ?_⟩
  rw [mem_blk4]
  obtain ⟨-, -, -, -, -, -, -, -, -, -, e0, e1, e2⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 8 ≤ (i 1).val ∧ (i 1).val < win0_4.index t (1 : Fin 3) * 8 + 8; omega
  | ⟨2, _⟩ => show win0_4.index t (2 : Fin 3) * 128 ≤ (i 2).val ∧ (i 2).val < win0_4.index t (2 : Fin 3) * 128 + 128; omega

end Cert.KernelIdeal.Body

end
-- ==== Proof.Spec.lean ====
/-
  The prototype loss as one function of the three argument arrays, on the extended reals.

  For prototypes `p : [80, 1024]`, features `x : [2048, 80, 1024]` and integer labels `l : [2048, 80]`:
  the squared distance of sample `b`'s class-`c` feature to prototype `c` is `sqd b c = ∑ d, (x b c d − p c d)²`;
  the weight `wgt b c` is one where the label equals one and zero elsewhere; `total = ∑ b c, sqd b c · wgt b c`,
  `count = ∑ b c, wgt b c`, and the loss is `total / max count 1` where `count > 0` and zero elsewhere (`finish`).
  Both programs are shown equal to `G`; the sums are finite sums in a commutative monoid, so no finiteness of the
  entries is needed to reorder them.
-/
import Idealize.ShloMosaic.PureOps.Ideal
import Idealize.ShloMosaic.Lib.ValueIdx

noncomputable section

namespace Cert.ProtoLoss

open Idealize.ShloMosaic Idealize.ShloMosaic.ValueIdx

/-- The argument arrays' shapes, and the scalar result's. -/
abbrev SP : Shape := ⟨2, ![80, 1024]⟩
abbrev SX : Shape := ⟨3, ![2048, 80, 1024]⟩
abbrev SL : Shape := ⟨2, ![2048, 80]⟩
abbrev S0 : Shape := ⟨0, ![]⟩

/-- Squared distance of sample `b`'s class-`c` feature row to prototype row `c`. -/
def sqd (p : SP.Idx → EReal) (x : SX.Idx → EReal) (b : Fin 2048) (c : Fin 80) : EReal :=
  ∑ d : Fin 1024, (x (ix3 b c d) - p (ix2 c d)) * (x (ix3 b c d) - p (ix2 c d))

/-- The weight of entry `(b, c)`: the truth value of `label = 1` read as a number (one or zero). -/
def wgt (l : SL.Idx → BitVec 32) (b : Fin 2048) (c : Fin 80) : EReal :=
  FloatOps.uitofp (F := Ideal) .f32 (IntOp.cmpi .eq (l (ix2 b c)) 1#32)

/-- The weighted sum of squared distances over all samples and classes. -/
def total (p : SP.Idx → EReal) (x : SX.Idx → EReal) (l : SL.Idx → BitVec 32) : EReal :=
  ∑ b : Fin 2048, ∑ c : Fin 80, sqd p x b c * wgt l b c

/-- The number of entries whose label is one. -/
def count (l : SL.Idx → BitVec 32) : EReal :=
  ∑ b : Fin 2048, ∑ c : Fin 80, wgt l b c

/-- The last step both programs share: `tot / max cnt 1` where `cnt > 0`, zero elsewhere, on rank-zero arrays. -/
def finish (tot cnt : FVec Ideal S0 .f32) : FVec Ideal S0 .f32 :=
  select (cmpf .ogt cnt (constant (F := Ideal) S0 .f32 0x00000000#32))
    (Host.divf tot (maximumf cnt (constant (F := Ideal) S0 .f32 0x3F800000#32)))
    (constant (F := Ideal) S0 .f32 0x00000000#32)

/-- The loss as one function of the argument arrays. -/
def G (p : SP.Idx → EReal) (x : SX.Idx → EReal) (l : SL.Idx → BitVec 32) : FVec Ideal S0 .f32 :=
  finish (fun _ => total p x l) (fun _ => count l)

end Cert.ProtoLoss

end
-- ==== Proof.TailIdeal.lean ====
/-
  The host operations after the region, as one term of the two accumulator arrays.

  Each `[2, 8, 128]` accumulator array holds, at `(s, 0, 0)`, the partial result of half `s`. The tail takes the corner
  `[0:2, 0:1, 0:1]` of each array, reads it as a vector of two and sums it from zero — the total and the count —, and
  returns `total / max count 1` where `count > 0` and zero elsewhere. At the ideal values the two sums are
  `a (0,0,0) + a (1,0,0)`, and the rest is the specification's last step, term for term.
-/
import proofs.«158026_j57853209477371_2_alg».proof.Proof.Gen.KernelIdeal.Launch
import proofs.«158026_j57853209477371_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.KernelIdeal.TailIdeal

open Cert.KernelIdeal Cert.KernelIdeal.Gen Idealize.ShloMosaic Idealize.ShloMosaic.ValueIdx

section Generic
variable {F : FTy → Type} [FloatOps F]

/-- The corner `[0:2, 0:1, 0:1]` of an accumulator array, read as a vector of two and summed from zero. -/
def sumHalves (a : (⟨S2x8x128, .f32⟩ : BufTy).Contents (Elt F)) : (⟨S_, .f32⟩ : BufTy).Contents (Elt F) :=
  Host.reduceAdd (F := F)
    (shapeCast S2 (extractStridedSlice S2x1x1 ![0, 0, 0] a slices_S2x8x128_S2x1x1_0_0_0) shapeCasts_S2x1x1_S2)
    (constant (F := F) S_ .f32 0x00000000#32) reducesTo_S2_S_d0 h_S_

/-- The tail: `total / max count 1` where `count > 0`, zero elsewhere, of the two arrays' summed corners. -/
def tailTerm (a3 a4 : (⟨S2x8x128, .f32⟩ : BufTy).Contents (Elt F)) : (⟨S_, .f32⟩ : BufTy).Contents (Elt F) :=
  select (cmpf .ogt (sumHalves a4) (constant (F := F) S_ .f32 0x00000000#32))
    (Host.divf (sumHalves a3) (maximumf (sumHalves a4) (constant (F := F) S_ .f32 0x3F800000#32)))
    (constant (F := F) S_ .f32 0x00000000#32)

/-- What the result buffer holds after the tail's fifteen operations, from any contents `W`: the tail's term of the
    two accumulator arrays in `W`. -/
theorem tail_after (W : Valuation τ sig (Elt F)) :
    StableHlo.after (hostOps1 ++ hostOps1_1) W (Proc.devRef .tc main_v10)
      = tailTerm (W (Proc.devRef .tc main_v0_0)) (W (Proc.devRef .tc main_v0_1)) := by
  simp only [hostOps1, hostOps1_1, List.cons_append, List.nil_append]
  open Idealize.ShloMosaic.StableHlo in after_results
  rfl

/-- The same with the two stretches of operations as a list of lists. -/
theorem tail_after_flatten (W : Valuation τ sig (Elt F)) :
    StableHlo.after (List.flatten [hostOps1, hostOps1_1]) W (Proc.devRef .tc main_v10)
      = tailTerm (W (Proc.devRef .tc main_v0_0)) (W (Proc.devRef .tc main_v0_1)) :=
  tail_after W

end Generic

/-- At the ideal values an array's summed corner is its two corner elements' sum. -/
theorem sumHalves_apply (a : (⟨S2x8x128, .f32⟩ : BufTy).Contents (Elt Ideal)) (i : S_.Idx) :
    sumHalves (F := Ideal) a i = a (ix3 0 0 0) + a (ix3 1 0 0) := by
  -- a rank-one index is its one coordinate
  let e : Fin 2 ≃ S2.Idx :=
    { toFun := fun k => ix1 k, invFun := fun j => j 0, left_inv := fun _ => rfl, right_inv := fun j => (eq_ix1 j).symm }
  have hx : ∀ k : Fin 2,
      shapeCast S2 (extractStridedSlice S2x1x1 ![0, 0, 0] a slices_S2x8x128_S2x1x1_0_0_0) shapeCasts_S2x1x1_S2 (ix1 k)
        = a (ix3 k 0 0) := by
    intro k
    refine (shapeCast_apply _ shapeCasts_S2x1x1_S2 (ix1 k) (ix3 k (0 : Fin 1) (0 : Fin 1)) ?_).trans ?_
    · rw [Shape.rowMajor_val_three, Shape.rowMajor_val_one]
      show (k.val * 1 + 0) * 1 + 0 = k.val
      omega
    · refine extractStridedSlice_apply _ a slices_S2x8x128_S2x1x1_0_0_0 _ (ix3 k 0 0) (fun ax => ?_)
      match ax with
      | ⟨0, _⟩ => exact (Nat.zero_add _).symm
      | ⟨1, _⟩ => exact (Nat.zero_add _).symm
      | ⟨2, _⟩ => exact (Nat.zero_add _).symm
  unfold sumHalves
  refine (Ideal.hostReduceAdd_total reducesTo_S2_S_d0 (fun b => b.elim0) _ _ i).trans ?_
  rw [← Equiv.sum_comp e, Fin.sum_univ_two]
  refine (congrArg (· + _) Ideal.ofBits_zero_f32).trans ?_
  rw [zero_add]
  exact congrArg₂ (· + ·) (hx 0) (hx 1)

/-- At the ideal values the tail is the specification's last step of the two arrays' corner sums. -/
theorem tailTerm_eq (a3 a4 : (⟨S2x8x128, .f32⟩ : BufTy).Contents (Elt Ideal)) :
    tailTerm (F := Ideal) a3 a4
      = Cert.ProtoLoss.finish (fun _ => a3 (ix3 0 0 0) + a3 (ix3 1 0 0)) (fun _ => a4 (ix3 0 0 0) + a4 (ix3 1 0 0)) := by
  have e3 : sumHalves (F := Ideal) a3 = fun _ => a3 (ix3 0 0 0) + a3 (ix3 1 0 0) := funext (sumHalves_apply a3)
  have e4 : sumHalves (F := Ideal) a4 = fun _ => a4 (ix3 0 0 0) + a4 (ix3 1 0 0) := funext (sumHalves_apply a4)
  unfold tailTerm Cert.ProtoLoss.finish
  rw [e3, e4]

end Cert.KernelIdeal.TailIdeal

end
-- ==== Proof.LibBlockSum.lean ====
/-
  GENERAL LEMMAS (Mathlib only; no program is imported).

  A sum over the first `n * b` naturals taken block by block: the index is `b * s + k` with `s < n` the block and
  `k < b` the place inside it. Only commutativity and associativity of `+` are used, so the law holds in every
  commutative additive monoid, the extended reals (with their two infinities) included. It is what joins a
  contraction accumulated in `n` blocks of `b` places with the same contraction taken whole.
-/
import Mathlib.Algebra.BigOperators.Fin

namespace Cert.BlockSum

open Finset

/-- `∑_{s < n} ∑_{k < b} f (b·s + k) = ∑_{K < n·b} f K`: by induction on the number of blocks, the last block split off
    the end of the range. -/
theorem sum_range_blocks {M : Type*} [AddCommMonoid M] (b : ℕ) (f : ℕ → M) :
    ∀ n : ℕ, ∑ s ∈ range n, ∑ k ∈ range b, f (b * s + k) = ∑ K ∈ range (n * b), f K
  | 0 => by simp
  | n + 1 => by
    rw [sum_range_succ, sum_range_blocks b f n, Nat.succ_mul, sum_range_add, Nat.mul_comm b n]

/-- A sum over `Fin n` of a function of the index's value is the sum over the first `n` naturals. -/
theorem sum_fin_eq_range {M : Type*} [AddCommMonoid M] (n : ℕ) (f : ℕ → M) :
    ∑ k : Fin n, f k.val = ∑ k ∈ range n, f k :=
  Fin.sum_univ_eq_sum_range f n

end Cert.BlockSum
-- ==== Proof.RowBlocks.lean ====
/-
  The 2048 sample rows taken as 2 halves of 32 tiles of 2 sub-tiles of 16 rows.

  Row `b` is written `b = ((s·32 + t)·2 + h)·16 + r` with `s < 2`, `t < 32`, `h < 2`, `r < 16`; a sum over all rows is the
  four-fold iterated sum over `(s, t, h, r)`. Only commutativity and associativity of `+` are used (three uses of the
  block-sum law over the naturals), so the law holds for sums of extended reals whatever the entries are.
-/
import proofs.«158026_j57853209477371_2_alg».proof.Proof.Spec
import proofs.«158026_j57853209477371_2_alg».proof.Proof.LibBlockSum

noncomputable section

namespace Cert.ProtoLoss

open Finset Cert.BlockSum Idealize.ShloMosaic Idealize.ShloMosaic.ValueIdx

/-- Row `r` of sub-tile `h` of tile `t` of half `s`. -/
def rowOf (s : Fin 2) (t : Fin 32) (h : Fin 2) (r : Fin 16) : Fin 2048 :=
  ⟨(s.val * 32 + t.val) * 32 + h.val * 16 + r.val, by omega⟩

/-- A sum over the 2048 rows is the iterated sum over halves, tiles, sub-tiles and rows of a sub-tile. -/
theorem sum_rows {M : Type*} [AddCommMonoid M] (f : Fin 2048 → M) :
    ∑ s : Fin 2, ∑ t : Fin 32, ∑ h : Fin 2, ∑ r : Fin 16, f (rowOf s t h r) = ∑ b : Fin 2048, f b := by
  classical
  -- `f` extended by zero to all naturals
  let g : ℕ → M := fun k => if hk : k < 2048 then f ⟨k, hk⟩ else 0
  have hg : ∀ b : Fin 2048, f b = g b.val := by
    intro b
    simp only [g, b.isLt, dif_pos, Fin.eta]
  have hrow : ∀ (s : Fin 2) (t : Fin 32) (h : Fin 2) (r : Fin 16),
      f (rowOf s t h r) = g (16 * (2 * (32 * s.val + t.val) + h.val) + r.val) := by
    intro s t h r
    rw [hg]
    have : (rowOf s t h r).val = 16 * (2 * (32 * s.val + t.val) + h.val) + r.val := by
      show (s.val * 32 + t.val) * 32 + h.val * 16 + r.val = _
      ring
    rw [this]
  -- each level of the iterated sum, over `Fin`, is the same sum over a range of naturals
  have e3 : ∀ q : ℕ, ∑ r : Fin 16, g (16 * q + r.val) = ∑ r ∈ range 16, g (16 * q + r) :=
    fun q => sum_fin_eq_range 16 (fun r => g (16 * q + r))
  have e2 : ∀ u : ℕ, ∑ h : Fin 2, ∑ r : Fin 16, g (16 * (2 * u + h.val) + r.val)
      = ∑ h ∈ range 2, ∑ r ∈ range 16, g (16 * (2 * u + h) + r) := by
    intro u
    rw [← sum_fin_eq_range 2 (fun h => ∑ r ∈ range 16, g (16 * (2 * u + h) + r))]
    exact Finset.sum_congr rfl (fun h _ => e3 _)
  have e1 : ∀ s : ℕ, ∑ t : Fin 32, ∑ h : Fin 2, ∑ r : Fin 16, g (16 * (2 * (32 * s + t.val) + h.val) + r.val)
      = ∑ t ∈ range 32, ∑ h ∈ range 2, ∑ r ∈ range 16, g (16 * (2 * (32 * s + t) + h) + r) := by
    intro s
    rw [← sum_fin_eq_range 32 (fun t => ∑ h ∈ range 2, ∑ r ∈ range 16, g (16 * (2 * (32 * s + t) + h) + r))]
    exact Finset.sum_congr rfl (fun t _ => e2 _)
  have e0 : ∑ s : Fin 2, ∑ t : Fin 32, ∑ h : Fin 2, ∑ r : Fin 16,
        g (16 * (2 * (32 * s.val + t.val) + h.val) + r.val)
      = ∑ s ∈ range 2, ∑ t ∈ range 32, ∑ h ∈ range 2, ∑ r ∈ range 16, g (16 * (2 * (32 * s + t) + h) + r) := by
    rw [← sum_fin_eq_range 2
      (fun s => ∑ t ∈ range 32, ∑ h ∈ range 2, ∑ r ∈ range 16, g (16 * (2 * (32 * s + t) + h) + r))]
    exact Finset.sum_congr rfl (fun s _ => e1 _)
  calc ∑ s : Fin 2, ∑ t : Fin 32, ∑ h : Fin 2, ∑ r : Fin 16, f (rowOf s t h r)
      = ∑ s : Fin 2, ∑ t : Fin 32, ∑ h : Fin 2, ∑ r : Fin 16,
          g (16 * (2 * (32 * s.val + t.val) + h.val) + r.val) := by
        simp only [hrow]
    _ = ∑ s ∈ range 2, ∑ t ∈ range 32, ∑ h ∈ range 2, ∑ r ∈ range 16,
          g (16 * (2 * (32 * s + t) + h) + r) := e0
    _ = ∑ u ∈ range (2 * 32), ∑ h ∈ range 2, ∑ r ∈ range 16, g (16 * (2 * u + h) + r) :=
        sum_range_blocks 32 (fun u => ∑ h ∈ range 2, ∑ r ∈ range 16, g (16 * (2 * u + h) + r)) 2
    _ = ∑ q ∈ range (2 * 32 * 2), ∑ r ∈ range 16, g (16 * q + r) :=
        sum_range_blocks 2 (fun q => ∑ r ∈ range 16, g (16 * q + r)) (2 * 32)
    _ = ∑ K ∈ range (2 * 32 * 2 * 16), g K := sum_range_blocks 16 g (2 * 32 * 2)
    _ = ∑ b : Fin 2048, g b.val := (sum_fin_eq_range 2048 g).symm
    _ = ∑ b : Fin 2048, f b := Finset.sum_congr rfl (fun b _ => (hg b).symm)

/-- The weighted total, row blocks first. -/
theorem total_rows (p : SP.Idx → EReal) (x : SX.Idx → EReal) (l : SL.Idx → BitVec 32) :
    total p x l = ∑ s : Fin 2, ∑ t : Fin 32, ∑ h : Fin 2, ∑ r : Fin 16, ∑ c : Fin 80,
      sqd p x (rowOf s t h r) c * wgt l (rowOf s t h r) c :=
  (sum_rows (fun b => ∑ c : Fin 80, sqd p x b c * wgt l b c)).symm

/-- The count, row blocks first. -/
theorem count_rows (l : SL.Idx → BitVec 32) :
    count l = ∑ s : Fin 2, ∑ t : Fin 32, ∑ h : Fin 2, ∑ r : Fin 16, ∑ c : Fin 80, wgt l (rowOf s t h r) c :=
  (sum_rows (fun b => ∑ c : Fin 80, wgt l b c)).symm

end Cert.ProtoLoss

end
-- ==== Proof.TilesSum.lean ====
/-
  The total and the count assembled from per-tile partial sums.

  The 2048 rows are 2 halves of 32 tiles of 32 rows. If `T (s·32 + k)` is tile `k` of half `s`'s partial sum — over
  its 2 sub-tiles of 16 rows and the 80 classes —, then the two halves' sums over their 32 tiles, added, are the sum
  over all rows and classes.
-/
import proofs.«158026_j57853209477371_2_alg».proof.Proof.RowBlocks

noncomputable section

namespace Cert.ProtoLoss

open Finset Idealize.ShloMosaic Idealize.ShloMosaic.ValueIdx

/-- The two halves' sums of per-tile weighted squared distances, added, are the weighted total. -/
theorem total_tiles (p : SP.Idx → EReal) (x : SX.Idx → EReal) (l : SL.Idx → BitVec 32) (T : ℕ → EReal)
    (hT : ∀ (s : Fin 2) (k : Fin 32), T (s.val * 32 + k.val)
      = ∑ h : Fin 2, ∑ r : Fin 16, ∑ c : Fin 80, sqd p x (rowOf s k h r) c * wgt l (rowOf s k h r) c) :
    (∑ k ∈ Finset.range 32, T (0 * 32 + k)) + (∑ k ∈ Finset.range 32, T (1 * 32 + k)) = total p x l := by
  rw [total_rows, Fin.sum_univ_two]
  refine congrArg₂ (· + ·) ?_ ?_
  · rw [← Cert.BlockSum.sum_fin_eq_range 32 (fun k => T (0 * 32 + k))]
    exact Finset.sum_congr rfl (fun k _ => hT 0 k)
  · rw [← Cert.BlockSum.sum_fin_eq_range 32 (fun k => T (1 * 32 + k))]
    exact Finset.sum_congr rfl (fun k _ => hT 1 k)

/-- The two halves' sums of per-tile weights, added, are the count. -/
theorem count_tiles (l : SL.Idx → BitVec 32) (T : ℕ → EReal)
    (hT : ∀ (s : Fin 2) (k : Fin 32), T (s.val * 32 + k.val)
      = ∑ h : Fin 2, ∑ r : Fin 16, ∑ c : Fin 80, wgt l (rowOf s k h r) c) :
    (∑ k ∈ Finset.range 32, T (0 * 32 + k)) + (∑ k ∈ Finset.range 32, T (1 * 32 + k)) = ProtoLoss.count l := by
  rw [count_rows, Fin.sum_univ_two]
  refine congrArg₂ (· + ·) ?_ ?_
  · rw [← Cert.BlockSum.sum_fin_eq_range 32 (fun k => T (0 * 32 + k))]
    exact Finset.sum_congr rfl (fun k _ => hT 0 k)
  · rw [← Cert.BlockSum.sum_fin_eq_range 32 (fun k => T (1 * 32 + k))]
    exact Finset.sum_congr rfl (fun k _ => hT 1 k)

end Cert.ProtoLoss

end
-- ==== Proof.FinalI.lean ====
/-
  The two result arrays after the run, and the program's result, on the extended reals.

  Each result array [2, 8, 128] is written back once per half `s`, after the half's last tile, with every entry the
  sum of the half's 32 tile sums; the two blocks tile the array. The host lines after the region add entry (s, 0, 0)
  of the two halves and finish with `tot / max cnt 1` where `cnt > 0`. A tile sum is the sum over its 32 rows (two
  sub-tiles of 16) and 80 classes, so the two halves' 32 tiles enumerate the 2048 sample rows once each: the result is
  the loss `G` of the argument arrays.
-/
import proofs.«158026_j57853209477371_2_alg».proof.Proof.AccumI
import proofs.«158026_j57853209477371_2_alg».proof.Proof.BlocksI
import proofs.«158026_j57853209477371_2_alg».proof.Proof.TailIdeal
import proofs.«158026_j57853209477371_2_alg».proof.Proof.TilesSum
import Idealize.ShloMosaic.Lib.Pipeline.Value

set_option maxRecDepth 16384

noncomputable section

namespace Cert.KernelIdeal.Body

open Cert.KernelIdeal Cert.KernelIdeal.Gen Cert.KernelIdeal.PayloadIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Cert.ProtoLoss

/-- What the sum array ends holding: at `(s, ·, ·)` the sum of half `s`'s 32 tile sums. -/
def G3 (c : Dev nD) : S2x8x128.Idx → EReal := fun i => ∑ k ∈ Finset.range 32, (tileAt m c ((i 0).val * 32 + k)).1
/-- What the count array ends holding. -/
def G4 (c : Dev nD) : S2x8x128.Idx → EReal := fun i => ∑ k ∈ Finset.range 32, (tileAt m c ((i 0).val * 32 + k)).2

/-- What a write-back point writes back is its block of `G3`: the point is the last tile of its half, so the
    accumulated sum runs over the whole half. -/
theorem flushed3_eq (c : Dev nD) (t : Fin cfg0.N) (hf : (cfg0.win 3).flush t = true) :
    (dats m 0 c).flushed 3 t = ((cfg0.win 3).blk t).view.read (Elt Ideal) (G3 m c) := by
  have h31 : t.val % 32 = 31 := (flush0_3 t).mp hf
  show (cfg0.win 3).cut (grid0.coords t) ((dats m 0 c).after 3 t) = _
  rw [after0_3]
  funext y
  show (outsAt0 m c t.val t.isLt).1 y = G3 m c (((cfg0.win 3).blk t).view.emb y)
  rw [(outs_closed m c t.val t.isLt y).1, h31, blk3_emb]
  unfold G3
  refine Finset.sum_congr rfl fun k _ => ?_
  have e : t.val - 31 + k = t.val / 32 * 32 + k := by omega
  exact congrArg (fun n => (tileAt m c n).1) e

theorem flushed4_eq (c : Dev nD) (t : Fin cfg0.N) (hf : (cfg0.win 4).flush t = true) :
    (dats m 0 c).flushed 4 t = ((cfg0.win 4).blk t).view.read (Elt Ideal) (G4 m c) := by
  have h31 : t.val % 32 = 31 := (flush0_4 t).mp hf
  show (cfg0.win 4).cut (grid0.coords t) ((dats m 0 c).after 4 t) = _
  rw [after0_4]
  funext y
  show (outsAt0 m c t.val t.isLt).2 y = G4 m c (((cfg0.win 4).blk t).view.emb y)
  rw [(outs_closed m c t.val t.isLt y).2, h31, blk4_emb]
  unfold G4
  refine Finset.sum_congr rfl fun k _ => ?_
  have e : t.val - 31 + k = t.val / 32 * 32 + k := by omega
  exact congrArg (fun n => (tileAt m c n).2) e

/-- The sum array after the run. -/
theorem final3 (c : Dev nD) : (dats m 0 c).arrAt 3 cfg0.N = G3 m c :=
  (dats m 0 c).arrAt_eq_of_cover 3 (G3 m c) (fun t hf => flushed3_eq m c t hf) cover3
/-- The count array after the run. -/
theorem final4 (c : Dev nD) : (dats m 0 c).arrAt 4 cfg0.N = G4 m c :=
  (dats m 0 c).arrAt_eq_of_cover 4 (G4 m c) (fun t hf => flushed4_eq m c t hf) cover4

/-- A tile's weighted sum, over the argument arrays: its 32 rows are rows `(s·32 + k)·32 + h·16 + r` of the samples. -/
theorem tileAt_fst (c : Dev nD) (s : Fin 2) (k : Fin 32) :
    (tileAt m c (s.val * 32 + k.val)).1 = ∑ h : Fin 2, ∑ r : Fin 16, ∑ cc : Fin 80,
      sqd (m ((c.tc : Thread nD τ).loc main_arg0)) (m ((c.tc : Thread nD τ).loc main_arg1)) (rowOf s k h r) cc
        * wgt (m ((c.tc : Thread nD τ).loc main_arg2)) (rowOf s k h r) cc := by
  have hlt : s.val * 32 + k.val < cfg0.N := by
    have h64 : cfg0.N = 64 := N_0
    have := s.isLt; have := k.isLt; omega
  unfold tileAt
  rw [dif_pos hlt]
  dsimp only
  rw [tileLoop_fst]
  refine Finset.sum_congr rfl fun h _ => Finset.sum_congr rfl fun r _ => Finset.sum_congr rfl fun cc _ => ?_
  unfold sqd wgt
  have hrow : (⟨(⟨s.val * 32 + k.val, hlt⟩ : Fin cfg0.N).val * 32 + (rowIn h r).val, by
      have := (rowIn h r).isLt; have := s.isLt; have := k.isLt; show (s.val * 32 + k.val) * 32 + (rowIn h r).val < 2048; omega⟩ : Fin 2048) = rowOf s k h r :=
    Fin.ext (by show (s.val * 32 + k.val) * 32 + (h.val * 16 + r.val) = (s.val * 32 + k.val) * 32 + h.val * 16 + r.val; omega)
  rw [iblk2_apply, hrow]
  refine congrArg₂ (· * ·) (Finset.sum_congr rfl fun d _ => ?_) rfl
  rw [iblk1_apply, iblk0_apply, hrow]
  rfl

/-- A tile's count, over the labels. -/
theorem tileAt_snd (c : Dev nD) (s : Fin 2) (k : Fin 32) :
    (tileAt m c (s.val * 32 + k.val)).2 = ∑ h : Fin 2, ∑ r : Fin 16, ∑ cc : Fin 80,
      wgt (m ((c.tc : Thread nD τ).loc main_arg2)) (rowOf s k h r) cc := by
  have hlt : s.val * 32 + k.val < cfg0.N := by
    have h64 : cfg0.N = 64 := N_0
    have := s.isLt; have := k.isLt; omega
  unfold tileAt
  rw [dif_pos hlt]
  dsimp only
  rw [tileLoop_snd]
  refine Finset.sum_congr rfl fun h _ => Finset.sum_congr rfl fun r _ => Finset.sum_congr rfl fun cc _ => ?_
  unfold wgt
  have hrow : (⟨(⟨s.val * 32 + k.val, hlt⟩ : Fin cfg0.N).val * 32 + (rowIn h r).val, by
      have := (rowIn h r).isLt; have := s.isLt; have := k.isLt; show (s.val * 32 + k.val) * 32 + (rowIn h r).val < 2048; omega⟩ : Fin 2048) = rowOf s k h r :=
    Fin.ext (by show (s.val * 32 + k.val) * 32 + (h.val * 16 + r.val) = (s.val * 32 + k.val) * 32 + h.val * 16 + r.val; omega)
  rw [iblk2_apply, hrow]
  rfl

/-- The program's result buffer after the lines that follow the region is the loss of the argument arrays. -/
theorem result_eq (c : Dev nD) :
    Pipeline.afterTail₀ cfgs (dats m) 0 (V0 m) [hostOps1, hostOps1_1] c main_v10
      = G (m ((c.tc : Thread nD τ).loc main_arg0)) (m ((c.tc : Thread nD τ).loc main_arg1)) (m ((c.tc : Thread nD τ).loc main_arg2)) := by
  unfold Pipeline.afterTail₀
  rw [Cert.KernelIdeal.TailIdeal.tail_after_flatten]
  have e3 : Pipeline.withArrays (cfgs 0).spec c (V0 m c) (fun w => (dats m 0 c).arrAt w (cfgs 0).N) (Proc.devRef .tc main_v0_0) = G3 m c :=
    (Pipeline.withArrays_arr spec0 launch0.win.arr_inj c _ _ 3).trans (final3 m c)
  have e4 : Pipeline.withArrays (cfgs 0).spec c (V0 m c) (fun w => (dats m 0 c).arrAt w (cfgs 0).N) (Proc.devRef .tc main_v0_1) = G4 m c :=
    (Pipeline.withArrays_arr spec0 launch0.win.arr_inj c _ _ 4).trans (final4 m c)
  rw [e3, e4, Cert.KernelIdeal.TailIdeal.tailTerm_eq]
  unfold G
  refine congrArg₂ finish (funext fun _ => ?_) (funext fun _ => ?_)
  · exact total_tiles _ _ _ (fun n => (tileAt m c n).1) (fun s k => tileAt_fst m c s k)
  · exact count_tiles _ (fun n => (tileAt m c n).2) (fun s k => tileAt_snd m c s k)

/-- THE KERNEL'S RUN, READ: every weakly fair execution terminates with the result buffer at the loss of the argument
    arrays and the argument arrays unchanged. -/
theorem kernel_run : θ_run defs (onTc (τ := τ) (main (F := Ideal))) ⟨m, fun _ => 0, ρ⟩ (fun r => ∀ c : Dev nD,
      r.2.mem ((c.tc : Thread nD τ).loc main_v10)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v10 (Pipeline.mem_restRefs_of main_v10 rfl (by intro w; fin_cases w <;> decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Body

end
-- ==== Proof.RefRun.lean ====
/-
  The reference program's run.

  @main is a straight line of 22 host operations (the outlined select inline as the last). Listed in order, the
  program is their sequence, so every weakly fair execution terminates with each buffer at the fold of the
  operations' results over the launch contents. The result buffer then holds one pure term of the three argument
  arrays, refTerm: with mask = [label = 1] as a float, diff = x − broadcast p, sq = ∑ over the last axis of diff²,
  total = ∑ over both axes of sq · mask and count = ∑ over both axes of mask, it is total / max count 1 where
  count > 0 and zero elsewhere.
-/
import proofs.«158026_j57853209477371_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The mask: one where the label equals one, zero elsewhere, as a float array. -/
def mask (x2 : (⟨S2048x80, .i32⟩ : BufTy).Contents (Elt F)) : (⟨S2048x80, .f32⟩ : BufTy).Contents (Elt F) :=
  uitofp (F := F) .f32
    (cmpi .eq x2 (broadcastInDim S2048x80 ![] bcast_S_S2048x80 (constantI S_ 32 1#32) : (⟨S2048x80, .i32⟩ : BufTy).Contents (Elt F))
      : (⟨S2048x80, .i1⟩ : BufTy).Contents (Elt F))

/-- The difference of the features and the prototypes broadcast over the samples. -/
def diff (x0 : (⟨S80x1024, .f32⟩ : BufTy).Contents (Elt F)) (x1 : (⟨S2048x80x1024, .f32⟩ : BufTy).Contents (Elt F)) :
    (⟨S2048x80x1024, .f32⟩ : BufTy).Contents (Elt F) :=
  subf x1
    (broadcastInDim S2048x80x1024 ![0, 1, 2] bcast_S1x80x1024_S2048x80x1024_0_1_2
      (broadcastInDim S1x80x1024 ![1, 2] bcast_S80x1024_S1x80x1024_1_2 x0 : (⟨S1x80x1024, .f32⟩ : BufTy).Contents (Elt F))
      : (⟨S2048x80x1024, .f32⟩ : BufTy).Contents (Elt F))

/-- The squared distances: the squared differences summed over the last axis. -/
def sq (x0 : (⟨S80x1024, .f32⟩ : BufTy).Contents (Elt F)) (x1 : (⟨S2048x80x1024, .f32⟩ : BufTy).Contents (Elt F)) :
    (⟨S2048x80, .f32⟩ : BufTy).Contents (Elt F) :=
  Host.reduceAdd (mulf (diff x0 x1) (diff x0 x1) : (⟨S2048x80x1024, .f32⟩ : BufTy).Contents (Elt F))
    (constant (F := F) S_ .f32 0x00000000#32) reducesTo_S2048x80x1024_S2048x80_d2 h_S_

/-- The masked squared distances summed over both axes. -/
def tot (x0 : (⟨S80x1024, .f32⟩ : BufTy).Contents (Elt F)) (x1 : (⟨S2048x80x1024, .f32⟩ : BufTy).Contents (Elt F))
    (x2 : (⟨S2048x80, .i32⟩ : BufTy).Contents (Elt F)) : (⟨S_, .f32⟩ : BufTy).Contents (Elt F) :=
  Host.reduceAdd (mulf (sq x0 x1) (mask x2) : (⟨S2048x80, .f32⟩ : BufTy).Contents (Elt F))
    (constant (F := F) S_ .f32 0x00000000#32) reducesTo_S2048x80_S_d0_1 h_S_

/-- The mask summed over both axes. -/
def cnt (x2 : (⟨S2048x80, .i32⟩ : BufTy).Contents (Elt F)) : (⟨S_, .f32⟩ : BufTy).Contents (Elt F) :=
  Host.reduceAdd (mask (F := F) x2) (constant (F := F) S_ .f32 0x00000000#32) reducesTo_S2048x80_S_d0_1 h_S_

/-- The reference's result as one term of its three argument arrays. -/
def refTerm (x0 : (⟨S80x1024, .f32⟩ : BufTy).Contents (Elt F)) (x1 : (⟨S2048x80x1024, .f32⟩ : BufTy).Contents (Elt F))
    (x2 : (⟨S2048x80, .i32⟩ : BufTy).Contents (Elt F)) : (⟨S_, .f32⟩ : BufTy).Contents (Elt F) :=
  select
    (cmpf .ogt (cnt (F := F) x2) (constant (F := F) S_ .f32 0x00000000#32) : (⟨S_, .i1⟩ : BufTy).Contents (Elt F))
    (Host.divf (tot x0 x1 x2) (maximumf (cnt (F := F) x2) (constant (F := F) S_ .f32 0x3F800000#32)))
    (constant (F := F) S_ .f32 0x00000000#32)

/-- @main's 22 operations, in order; the last is the outlined select, over the call's buffer record. -/
abbrev ops : List (HloOp τ sig (Elt F)) :=
  [ nullary main_c (constantI S_ 32 1#32),
    unary main_c main_v0 (broadcastInDim S2048x80 ![] bcast_S_S2048x80 : (⟨S_, .i32⟩ : BufTy).Contents (Elt F) → (⟨S2048x80, .i32⟩ : BufTy).Contents (Elt F)),
    binary main_arg2 main_v0 main_v1 (cmpi .eq : (⟨S2048x80, .i32⟩ : BufTy).Contents (Elt F) → (⟨S2048x80, .i32⟩ : BufTy).Contents (Elt F) → (⟨S2048x80, .i1⟩ : BufTy).Contents (Elt F)),
    unary main_v1 main_v2 (uitofp (F := F) .f32 : (⟨S2048x80, .i1⟩ : BufTy).Contents (Elt F) → (⟨S2048x80, .f32⟩ : BufTy).Contents (Elt F)),
    unary main_arg0 main_v3 (broadcastInDim S1x80x1024 ![1, 2] bcast_S80x1024_S1x80x1024_1_2 : (⟨S80x1024, .f32⟩ : BufTy).Contents (Elt F) → (⟨S1x80x1024, .f32⟩ : BufTy).Contents (Elt F)),
    unary main_v3 main_v4 (broadcastInDim S2048x80x1024 ![0, 1, 2] bcast_S1x80x1024_S2048x80x1024_0_1_2 : (⟨S1x80x1024, .f32⟩ : BufTy).Contents (Elt F) → (⟨S2048x80x1024, .f32⟩ : BufTy).Contents (Elt F)),
    binary main_arg1 main_v4 main_v5 (subf : (⟨S2048x80x1024, .f32⟩ : BufTy).Contents (Elt F) → (⟨S2048x80x1024, .f32⟩ : BufTy).Contents (Elt F) → (⟨S2048x80x1024, .f32⟩ : BufTy).Contents (Elt F)),
    binary main_v5 main_v5 main_v6 (mulf : (⟨S2048x80x1024, .f32⟩ : BufTy).Contents (Elt F) → (⟨S2048x80x1024, .f32⟩ : BufTy).Contents (Elt F) → (⟨S2048x80x1024, .f32⟩ : BufTy).Contents (Elt F)),
    nullary main_cst (constant (F := F) S_ .f32 0x00000000#32),
    binary main_v6 main_cst main_v7 ((fun x v => Host.reduceAdd x v reducesTo_S2048x80x1024_S2048x80_d2 h_S_) : (⟨S2048x80x1024, .f32⟩ : BufTy).Contents (Elt F) → (⟨S_, .f32⟩ : BufTy).Contents (Elt F) → (⟨S2048x80, .f32⟩ : BufTy).Contents (Elt F)),
    binary main_v7 main_v2 main_v8 (mulf : (⟨S2048x80, .f32⟩ : BufTy).Contents (Elt F) → (⟨S2048x80, .f32⟩ : BufTy).Contents (Elt F) → (⟨S2048x80, .f32⟩ : BufTy).Contents (Elt F)),
    nullary main_cst_0 (constant (F := F) S_ .f32 0x00000000#32),
    binary main_v8 main_cst_0 main_v9 ((fun x v => Host.reduceAdd x v reducesTo_S2048x80_S_d0_1 h_S_) : (⟨S2048x80, .f32⟩ : BufTy).Contents (Elt F) → (⟨S_, .f32⟩ : BufTy).Contents (Elt F) → (⟨S_, .f32⟩ : BufTy).Contents (Elt F)),
    nullary main_cst_1 (constant (F := F) S_ .f32 0x00000000#32),
    binary main_v2 main_cst_1 main_v10 ((fun x v => Host.reduceAdd x v reducesTo_S2048x80_S_d0_1 h_S_) : (⟨S2048x80, .f32⟩ : BufTy).Contents (Elt F) → (⟨S_, .f32⟩ : BufTy).Contents (Elt F) → (⟨S_, .f32⟩ : BufTy).Contents (Elt F)),
    nullary main_cst_2 (constant (F := F) S_ .f32 0x00000000#32),
    binary main_v10 main_cst_2 main_v11 (cmpf .ogt : (⟨S_, .f32⟩ : BufTy).Contents (Elt F) → (⟨S_, .f32⟩ : BufTy).Contents (Elt F) → (⟨S_, .i1⟩ : BufTy).Contents (Elt F)),
    nullary main_cst_3 (constant (F := F) S_ .f32 0x3F800000#32),
    binary main_v10 main_cst_3 main_v12 (maximumf : (⟨S_, .f32⟩ : BufTy).Contents (Elt F) → (⟨S_, .f32⟩ : BufTy).Contents (Elt F) → (⟨S_, .f32⟩ : BufTy).Contents (Elt F)),
    binary main_v9 main_v12 main_v13 (Host.divf : (⟨S_, .f32⟩ : BufTy).Contents (Elt F) → (⟨S_, .f32⟩ : BufTy).Contents (Elt F) → (⟨S_, .f32⟩ : BufTy).Contents (Elt F)),
    nullary main_cst_4 (constant (F := F) S_ .f32 0x00000000#32),
    TRef.ternary (.of main_v11) (.of main_v13) (.of main_cst_4) main_call0.v0 select ]

/-- @main is that straight line: the callee's definition unfolded at its call, both sides are one chain of
    host steps once sequencing is reassociated. -/
theorem main_eq (c : Dev nD) : main (F := F) c = seq ops := by
  simp only [main, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., unary_bufs_sub .., unary_bufs_sub .., unary_bufs_sub ..,
    binary_bufs_sub .., binary_bufs_sub .., nullary_bufs_sub .., binary_bufs_sub .., binary_bufs_sub .., nullary_bufs_sub ..,
    binary_bufs_sub .., nullary_bufs_sub .., binary_bufs_sub .., nullary_bufs_sub .., binary_bufs_sub .., nullary_bufs_sub ..,
    binary_bufs_sub .., binary_bufs_sub .., nullary_bufs_sub .., ternary_bufs_sub ..⟩

/-- On every device, for any float values, from any memory with zero counters: every weakly fair execution of
    @main terminates with the result at refTerm of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v14).trans (by after_results; rfl),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.RefRun

end
-- ==== Proof.RefIsSpec.lean ====
/-
  The reference's term is the prototype loss G of the three argument arrays, on the extended reals.

  Read at an index: the mask at (b, c) is the weight wgt b c; the difference at (b, c, d) is x(b, c, d) − p(c, d)
  (the two broadcasts read the prototype row at the trailing coordinates); the sum over the last axis at (b, c) is
  0 + ∑ d of the squared difference, that is sqd b c; a sum over both axes into the rank-zero array is 0 + the sum over
  every index, which is the double sum over the coordinates. The final select / compare / divide / maximum is the
  same term on both sides.
-/
import proofs.«158026_j57853209477371_2_alg».proof.Proof.RefRun
import proofs.«158026_j57853209477371_2_alg».proof.Proof.Spec
import Idealize.ShloMosaic.PureOps.Ideal.Laws
import Idealize.ShloMosaic.Lib.ValueIdx
import Idealize.ShloMosaic.Lib.Pipeline.Value

noncomputable section

namespace Cert.ReferenceIdeal.RefSpec

open Cert.ReferenceIdeal Cert.ReferenceIdeal.Gen Cert.ProtoLoss Idealize.ShloMosaic Idealize.ShloMosaic.ValueIdx

/-- The mask at (b, c) is the weight of entry (b, c). -/
theorem mask_apply (x2 : (⟨S2048x80, .i32⟩ : BufTy).Contents (Elt Ideal)) (b : Fin 2048) (c : Fin 80) :
    RefRun.mask (F := Ideal) x2 (ix2 b c) = wgt x2 b c := rfl

/-- The prototypes broadcast over the samples, read at (b, c, d): the prototype entry (c, d). -/
theorem bcast_apply (x0 : (⟨S80x1024, .f32⟩ : BufTy).Contents (Elt Ideal)) (b : Fin 2048) (c : Fin 80) (d : Fin 1024) :
    (broadcastInDim S2048x80x1024 ![0, 1, 2] bcast_S1x80x1024_S2048x80x1024_0_1_2
      (broadcastInDim S1x80x1024 ![1, 2] bcast_S80x1024_S1x80x1024_1_2 x0 : (⟨S1x80x1024, .f32⟩ : BufTy).Contents (Elt Ideal))
      : (⟨S2048x80x1024, .f32⟩ : BufTy).Contents (Elt Ideal)) (ix3 b c d) = x0 (ix2 c d) := by
  rw [broadcastInDim_apply (k := (ix3 (0 : Fin 1) c d : S1x80x1024.Idx))
        (hk := fun a => match a with | ⟨0, _⟩ => rfl | ⟨1, _⟩ => rfl | ⟨2, _⟩ => rfl),
      broadcastInDim_apply (k := (ix2 c d : S80x1024.Idx))
        (hk := fun a => match a with | ⟨0, _⟩ => rfl | ⟨1, _⟩ => rfl)]

/-- The difference at (b, c, d). -/
theorem diff_apply (x0 : (⟨S80x1024, .f32⟩ : BufTy).Contents (Elt Ideal)) (x1 : (⟨S2048x80x1024, .f32⟩ : BufTy).Contents (Elt Ideal))
    (b : Fin 2048) (c : Fin 80) (d : Fin 1024) :
    RefRun.diff (F := Ideal) x0 x1 (ix3 b c d) = x1 (ix3 b c d) - x0 (ix2 c d) := by
  unfold RefRun.diff
  rw [subf_apply, bcast_apply]

/-- The witness naming the index a reduced index lifts to over the last axis. -/
theorem reduces_d2 : S2048x80x1024.Reduces [2] S2048x80 := by decide

/-- Inserting coordinate d on the last axis of (b, c) gives (b, c, d). -/
theorem lift_ix (b : Fin 2048) (c : Fin 80) (d : Fin 1024) :
    reduces_d2.lift (ix2 b c : S2048x80.Idx) d = ix3 b c d := by
  funext a
  match a with
  | ⟨0, _⟩ => exact Fin.ext rfl
  | ⟨1, _⟩ => exact Fin.ext rfl
  | ⟨2, _⟩ => exact Fin.ext rfl

/-- The sum over the last axis at (b, c) is the squared distance sqd b c. -/
theorem sq_apply (x0 : (⟨S80x1024, .f32⟩ : BufTy).Contents (Elt Ideal)) (x1 : (⟨S2048x80x1024, .f32⟩ : BufTy).Contents (Elt Ideal))
    (b : Fin 2048) (c : Fin 80) :
    RefRun.sq (F := Ideal) x0 x1 (ix2 b c) = sqd x0 x1 b c := by
  unfold RefRun.sq Host.reduceAdd
  rw [Ideal.hostReduceAdd_def, Ideal.hostReduceAdd_single reducesTo_S2048x80x1024_S2048x80_d2 reduces_d2, constant_apply,
    Ideal.ofBits_zero_f32, zero_add]
  show (∑ d : Fin 1024, (mulf (RefRun.diff (F := Ideal) x0 x1) (RefRun.diff (F := Ideal) x0 x1) : FVec Ideal S2048x80x1024 .f32)
      (reduces_d2.lift (ix2 b c : S2048x80.Idx) d)) = sqd x0 x1 b c
  unfold sqd
  refine Finset.sum_congr rfl fun d _ => ?_
  rw [lift_ix, mulf_apply, diff_apply]

/-- The masked sum over both axes is the weighted total. -/
theorem tot_eq (x0 : (⟨S80x1024, .f32⟩ : BufTy).Contents (Elt Ideal)) (x1 : (⟨S2048x80x1024, .f32⟩ : BufTy).Contents (Elt Ideal))
    (x2 : (⟨S2048x80, .i32⟩ : BufTy).Contents (Elt Ideal)) :
    RefRun.tot (F := Ideal) x0 x1 x2 = fun _ => total x0 x1 x2 := by
  funext j
  unfold RefRun.tot Host.reduceAdd
  rw [Ideal.hostReduceAdd_def, Ideal.hostReduceAdd_total reducesTo_S2048x80_S_d0_1 (fun b => b.elim0), constant_apply,
    Ideal.ofBits_zero_f32, zero_add, sum_idx2]
  unfold total
  refine Finset.sum_congr rfl fun b _ => Finset.sum_congr rfl fun c _ => ?_
  rw [mulf_apply, sq_apply, mask_apply]

/-- The mask's sum over both axes is the count. -/
theorem cnt_eq (x2 : (⟨S2048x80, .i32⟩ : BufTy).Contents (Elt Ideal)) :
    RefRun.cnt (F := Ideal) x2 = fun _ => ProtoLoss.count x2 := by
  funext j
  unfold RefRun.cnt Host.reduceAdd
  rw [Ideal.hostReduceAdd_def, Ideal.hostReduceAdd_total reducesTo_S2048x80_S_d0_1 (fun b => b.elim0), constant_apply,
    Ideal.ofBits_zero_f32, zero_add, sum_idx2]
  unfold ProtoLoss.count
  refine Finset.sum_congr rfl fun b _ => Finset.sum_congr rfl fun c _ => ?_
  rw [mask_apply]

/-- The reference's term is the prototype loss of its arguments. -/
theorem refTerm_eq (x0 : (⟨S80x1024, .f32⟩ : BufTy).Contents (Elt Ideal)) (x1 : (⟨S2048x80x1024, .f32⟩ : BufTy).Contents (Elt Ideal))
    (x2 : (⟨S2048x80, .i32⟩ : BufTy).Contents (Elt Ideal)) :
    RefRun.refTerm (F := Ideal) x0 x1 x2 = G x0 x1 x2 := by
  unfold RefRun.refTerm G finish
  rw [tot_eq, cnt_eq]

end Cert.ReferenceIdeal.RefSpec

end
-- ==== Proof.lean ====
/-
  The prototype loss: a tiled Pallas kernel against its jnp reference, on the extended reals.

  Both programs take prototypes `p : [80, 1024]`, features `x : [2048, 80, 1024]` and integer labels
  `l : [2048, 80]` and return one number: with `sqd b c = ∑ d, (x b c d − p c d)²` and `w b c` one where
  `l b c = 1` and zero elsewhere, `total = ∑ b c, sqd b c · w b c`, `count = ∑ b c, w b c`, the result is
  `total / max count 1` where `count > 0` and zero elsewhere (`Cert.ProtoLoss.G`).

  The reference computes `total` and `count` as two sums over all 2048 × 80 entries. The kernel walks a 2 × 32 grid:
  each half keeps two accumulator blocks, zeroed at its first tile; each tile adds the sums over its 32 sample rows
  (two 16-row sub-tiles in a counted loop); the blocks are written back after the half's last tile, and the host adds
  the two halves' entries and finishes as the reference does. The two sides differ only by the grouping of finite sums
  and by added zeros, which agree in any commutative monoid — so the equality holds on the extended reals, infinities
  included, and the precondition is not opened.

  The frames: each program terminates on every weakly fair execution without a fault and leaves its argument arrays
  unchanged — the kernel's from the body run at a generic grid point in its two control cases (at both instances of the
  float operations), the reference's from its run read back. The idealization rewrote no operation, so `preserves`
  has nothing to state.
-/
import proofs.«158026_j57853209477371_2_alg».proof.Defs
import proofs.«158026_j57853209477371_2_alg».proof.Proof.Gen.Kernel
import proofs.«158026_j57853209477371_2_alg».proof.Proof.Gen.KernelIdeal
import proofs.«158026_j57853209477371_2_alg».proof.Proof.Gen.ReferenceIdeal
import proofs.«158026_j57853209477371_2_alg».proof.Proof.Gen.Pre_finite_inputs
import proofs.«158026_j57853209477371_2_alg».proof.Proof.BodyDataK
import proofs.«158026_j57853209477371_2_alg».proof.Proof.FinalI
import proofs.«158026_j57853209477371_2_alg».proof.Proof.RefRun
import proofs.«158026_j57853209477371_2_alg».proof.Proof.RefIsSpec
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Body.frame m ρ

/-- The idealized kernel runs and keeps its arguments. -/
theorem frame_kernelIdeal : Cert.frame_KernelIdeal := fun m ρ _ => Cert.KernelIdeal.Body.frame m ρ

/-- The reference runs and keeps its arguments: its run read back, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both idealized programs end with the loss `G` of the (agreeing) argument arrays. -/
theorem algebraic : Cert.algebraic_KernelIdeal_ReferenceIdeal := by
  intro m ρ m' ρ' _ hagree
  refine ⟨_, Cert.KernelIdeal.Body.kernel_run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefSpec.refTerm_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
